-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000 : Shape := ⟨1, ![1000000]⟩
abbrev S100000x3 : Shape := ⟨2, ![100000, 3]⟩
abbrev S100000x32 : Shape := ⟨2, ![100000, 32]⟩
abbrev S100000x27 : Shape := ⟨2, ![100000, 27]⟩
abbrev S100000x18 : Shape := ⟨2, ![100000, 18]⟩
abbrev S32x96 : Shape := ⟨2, ![32, 96]⟩
abbrev S32 : Shape := ⟨1, ![32]⟩
abbrev S30x18 : Shape := ⟨2, ![30, 18]⟩
abbrev S30 : Shape := ⟨1, ![30]⟩
abbrev S30x30 : Shape := ⟨2, ![30, 30]⟩
abbrev S5x30 : Shape := ⟨2, ![5, 30]⟩
abbrev S5 : Shape := ⟨1, ![5]⟩
abbrev S8x96 : Shape := ⟨2, ![8, 96]⟩
abbrev S8 : Shape := ⟨1, ![8]⟩
abbrev S1x8 : Shape := ⟨2, ![1, 8]⟩
abbrev S1 : Shape := ⟨1, ![1]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S100000x27 : S_.BroadcastsInDim S100000x27 (![] : Fin 0 → Fin S100000x27.rank)
  reducesTo_S100000x27_S_d0_1 : S100000x27.ReducesTo [0, 1] S_
  bcast_S_S100000x18 : S_.BroadcastsInDim S100000x18 (![] : Fin 0 → Fin S100000x18.rank)
  reducesTo_S100000x18_S_d0_1 : S100000x18.ReducesTo [0, 1] S_
  bcast_S_S32x96 : S_.BroadcastsInDim S32x96 (![] : Fin 0 → Fin S32x96.rank)
  reducesTo_S32x96_S_d0_1 : S32x96.ReducesTo [0, 1] S_
  bcast_S_S32 : S_.BroadcastsInDim S32 (![] : Fin 0 → Fin S32.rank)
  reducesTo_S32_S_d0 : S32.ReducesTo [0] S_
  bcast_S_S30x18 : S_.BroadcastsInDim S30x18 (![] : Fin 0 → Fin S30x18.rank)
  reducesTo_S30x18_S_d0_1 : S30x18.ReducesTo [0, 1] S_
  bcast_S_S30 : S_.BroadcastsInDim S30 (![] : Fin 0 → Fin S30.rank)
  reducesTo_S30_S_d0 : S30.ReducesTo [0] S_
  bcast_S_S30x30 : S_.BroadcastsInDim S30x30 (![] : Fin 0 → Fin S30x30.rank)
  reducesTo_S30x30_S_d0_1 : S30x30.ReducesTo [0, 1] S_
  bcast_S_S5x30 : S_.BroadcastsInDim S5x30 (![] : Fin 0 → Fin S5x30.rank)
  reducesTo_S5x30_S_d0_1 : S5x30.ReducesTo [0, 1] S_
  bcast_S_S5 : S_.BroadcastsInDim S5 (![] : Fin 0 → Fin S5.rank)
  reducesTo_S5_S_d0 : S5.ReducesTo [0] S_
  bcast_S_S8x96 : S_.BroadcastsInDim S8x96 (![] : Fin 0 → Fin S8x96.rank)
  reducesTo_S8x96_S_d0_1 : S8x96.ReducesTo [0, 1] S_
  bcast_S_S8 : S_.BroadcastsInDim S8 (![] : Fin 0 → Fin S8.rank)
  reducesTo_S8_S_d0 : S8.ReducesTo [0] S_
  bcast_S_S1x8 : S_.BroadcastsInDim S1x8 (![] : Fin 0 → Fin S1x8.rank)
  reducesTo_S1x8_S_d0_1 : S1x8.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg17 : FVec F S1 .f32) (main_v63 : IVec S_ 1) (main_v67 : IVec S_ 1) : IVec S_ 1 :=
  let main_v68 : IVec S_ 1 := andi main_v63 main_v67
  let main_v69 : FVec F S1 .f32 := Host.absf main_arg17
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg14 : FVec F S8x96 .f32) (main_arg15 : FVec F S8 .f32) (main_arg16 : FVec F S1x8 .f32) (main_arg17 : FVec F S1 .f32) (main_v48 : IVec S_ 1) (main_v49 : FVec F S5 .f32) (main_v50 : FVec F S5 .f32) : IVec S_ 1 :=
  let main_v51 : IVec S5 1 := cmpf .olt main_v49 main_v50
  let main_c_19 : IVec S_ 1 := constantI S_ 1 1#1
  let main_v52 : IVec S_ 1 := (fun x v => Host.reduce IntOp.andi x v reducesTo_S5_S_d0 h_S_) main_v51 main_c_19
  let main_v53 : IVec S_ 1 := andi main_v48 main_v52
  let main_v54 : FVec F S8x96 .f32 := Host.absf main_arg14
  let main_cst_20 : FVec F S_ .f32 := constant S_ .f32 0x7F800000#32
  let main_v55 : FVec F S8x96 .f32 := broadcastInDim S8x96 ![] bcast_S_S8x96 main_cst_20
  let main_v56 : IVec S8x96 1 := cmpf .olt main_v54 main_v55
  let main_c_21 : IVec S_ 1 := constantI S_ 1 1#1
  let main_v57 : IVec S_ 1 := (fun x v => Host.reduce IntOp.andi x v reducesTo_S8x96_S_d0_1 h_S_) main_v56 main_c_21
  let main_v58 : IVec S_ 1 := andi main_v53 main_v57
  let main_v59 : FVec F S8 .f32 := Host.absf main_arg15
  let main_cst_22 : FVec F S_ .f32 := constant S_ .f32 0x7F800000#32
  let main_v60 : FVec F S8 .f32 := broadcastInDim S8 ![] bcast_S_S8 main_cst_22
  let main_v61 : IVec S8 1 := cmpf .olt main_v59 main_v60
  let main_c_23 : IVec S_ 1 := constantI S_ 1 1#1
  let main_v62 : IVec S_ 1 := (fun x v => Host.reduce IntOp.andi x v reducesTo_S8_S_d0 h_S_) main_v61 main_c_23
  let main_v63 : IVec S_ 1 := andi main_v58 main_v62
  let main_v64 : FVec F S1x8 .f32 := Host.absf main_arg16
  let main_cst_24 : FVec F S_ .f32 := constant S_ .f32 0x7F800000#32
  let main_v65 : FVec F S1x8 .f32 := broadcastInDim S1x8 ![] bcast_S_S1x8 main_cst_24
  let main_v66 : IVec S1x8 1 := cmpf .olt main_v64 main_v65
  let main_c_25 : IVec S_ 1 := constantI S_ 1 1#1
  let main_v67 : IVec S_ 1 := (fun x v => Host.reduce IntOp.andi x v reducesTo_S1x8_S_d0_1 h_S_) main_v66 main_c_25
  fn_part4 (F := F) main_arg17 main_v63 main_v67

def fn_part2 {F : FTy → Type} [FloatOps F] (main_arg10 : FVec F S30x30 .f32) (main_arg11 : FVec F S30 .f32) (main_arg12 : FVec F S5x30 .f32) (main_arg13 : FVec F S5 .f32) (main_arg14 : FVec F S8x96 .f32) (main_arg15 : FVec F S8 .f32) (main_arg16 : FVec F S1x8 .f32) (main_arg17 : FVec F S1 .f32) (main_v33 : IVec S_ 1) : IVec S_ 1 :=
  let main_v34 : FVec F S30x30 .f32 := Host.absf main_arg10
  let main_cst_12 : FVec F S_ .f32 := constant S_ .f32 0x7F800000#32
  let main_v35 : FVec F S30x30 .f32 := broadcastInDim S30x30 ![] bcast_S_S30x30 main_cst_12
  let main_v36 : IVec S30x30 1 := cmpf .olt main_v34 main_v35
  let main_c_13 : IVec S_ 1 := constantI S_ 1 1#1
  let main_v37 : IVec S_ 1 := (fun x v => Host.reduce IntOp.andi x v reducesTo_S30x30_S_d0_1 h_S_) main_v36 main_c_13
  let main_v38 : IVec S_ 1 := andi main_v33 main_v37
  let main_v39 : FVec F S30 .f32 := Host.absf main_arg11
  let main_cst_14 : FVec F S_ .f32 := constant S_ .f32 0x7F800000#32
  let main_v40 : FVec F S30 .f32 := broadcastInDim S30 ![] bcast_S_S30 main_cst_14
  let main_v41 : IVec S30 1 := cmpf .olt main_v39 main_v40
  let main_c_15 : IVec S_ 1 := constantI S_ 1 1#1
  let main_v42 : IVec S_ 1 := (fun x v => Host.reduce IntOp.andi x v reducesTo_S30_S_d0 h_S_) main_v41 main_c_15
  let main_v43 : IVec S_ 1 := andi main_v38 main_v42
  let main_v44 : FVec F S5x30 .f32 := Host.absf main_arg12
  let main_cst_16 : FVec F S_ .f32 := constant S_ .f32 0x7F800000#32
  let main_v45 : FVec F S5x30 .f32 := broadcastInDim S5x30 ![] bcast_S_S5x30 main_cst_16
  let main_v46 : IVec S5x30 1 := cmpf .olt main_v44 main_v45
  let main_c_17 : IVec S_ 1 := constantI S_ 1 1#1
  let main_v47 : IVec S_ 1 := (fun x v => Host.reduce IntOp.andi x v reducesTo_S5x30_S_d0_1 h_S_) main_v46 main_c_17
  let main_v48 : IVec S_ 1 := andi main_v43 main_v47
  let main_v49 : FVec F S5 .f32 := Host.absf main_arg13
  let main_cst_18 : FVec F S_ .f32 := constant S_ .f32 0x7F800000#32
  let main_v50 : FVec F S5 .f32 := broadcastInDim S5 ![] bcast_S_S5 main_cst_18
  fn_part3 (F := F) main_arg14 main_arg15 main_arg16 main_arg17 main_v48 main_v49 main_v50

def fn_part1 {F : FTy → Type} [FloatOps F] (main_arg7 : FVec F S32 .f32) (main_arg8 : FVec F S30x18 .f32) (main_arg9 : FVec F S30 .f32) (main_arg10 : FVec F S30x30 .f32) (main_arg11 : FVec F S30 .f32) (main_arg12 : FVec F S5x30 .f32) (main_arg13 : FVec F S5 .f32) (main_arg14 : FVec F S8x96 .f32) (main_arg15 : FVec F S8 .f32) (main_arg16 : FVec F S1x8 .f32) (main_arg17 : FVec F S1 .f32) (main_v13 : IVec S_ 1) (main_v16 : IVec S32x96 1) : IVec S_ 1 :=
  let main_c_5 : IVec S_ 1 := constantI S_ 1 1#1
  let main_v17 : IVec S_ 1 := (fun x v => Host.reduce IntOp.andi x v reducesTo_S32x96_S_d0_1 h_S_) main_v16 main_c_5
  let main_v18 : IVec S_ 1 := andi main_v13 main_v17
  let main_v19 : FVec F S32 .f32 := Host.absf main_arg7
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S30x18 .f32 := Host.absf main_arg8
  let main_cst_8 : FVec F S_ .f32 := constant S_ .f32 0x7F800000#32
  let main_v25 : FVec F S30x18 .f32 := broadcastInDim S30x18 ![] bcast_S_S30x18 main_cst_8
  let main_v26 : IVec S30x18 1 := cmpf .olt main_v24 main_v25
  let main_c_9 : IVec S_ 1 := constantI S_ 1 1#1
  let main_v27 : IVec S_ 1 := (fun x v => Host.reduce IntOp.andi x v reducesTo_S30x18_S_d0_1 h_S_) main_v26 main_c_9
  let main_v28 : IVec S_ 1 := andi main_v23 main_v27
  let main_v29 : FVec F S30 .f32 := Host.absf main_arg9
  let main_cst_10 : FVec F S_ .f32 := constant S_ .f32 0x7F800000#32
  let main_v30 : FVec F S30 .f32 := broadcastInDim S30 ![] bcast_S_S30 main_cst_10
  let main_v31 : IVec S30 1 := cmpf .olt main_v29 main_v30
  let main_c_11 : IVec S_ 1 := constantI S_ 1 1#1
  let main_v32 : IVec S_ 1 := (fun x v => Host.reduce IntOp.andi x v reducesTo_S30_S_d0 h_S_) main_v31 main_c_11
  let main_v33 : IVec S_ 1 := andi main_v28 main_v32
  fn_part2 (F := F) main_arg10 main_arg11 main_arg12 main_arg13 main_arg14 main_arg15 main_arg16 main_arg17 main_v33

def fn {F : FTy → Type} [FloatOps F] (main_arg0 : IVec S1000000 32) (main_arg1 : IVec S1000000 32) (main_arg2 : IVec S100000x3 32) (main_arg3 : FVec F S100000x32 .f32) (main_arg4 : FVec F S100000x27 .f32) (main_arg5 : FVec F S100000x18 .f32) (main_arg6 : FVec F S32x96 .f32) (main_arg7 : FVec F S32 .f32) (main_arg8 : FVec F S30x18 .f32) (main_arg9 : FVec F S30 .f32) (main_arg10 : FVec F S30x30 .f32) (main_arg11 : FVec F S30 .f32) (main_arg12 : FVec F S5x30 .f32) (main_arg13 : FVec F S5 .f32) (main_arg14 : FVec F S8x96 .f32) (main_arg15 : FVec F S8 .f32) (main_arg16 : FVec F S1x8 .f32) (main_arg17 : FVec F S1 .f32) : IVec S_ 1 :=
  let main_v0 : FVec F S100000x32 .f32 := Host.absf main_arg3
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S100000x27 .f32 := Host.absf main_arg4
  let main_cst_0 : FVec F S_ .f32 := constant S_ .f32 0x7F800000#32
  let main_v5 : FVec F S100000x27 .f32 := broadcastInDim S100000x27 ![] bcast_S_S100000x27 main_cst_0
  let main_v6 : IVec S100000x27 1 := cmpf .olt main_v4 main_v5
  let main_c_1 : IVec S_ 1 := constantI S_ 1 1#1
  let main_v7 : IVec S_ 1 := (fun x v => Host.reduce IntOp.andi x v reducesTo_S100000x27_S_d0_1 h_S_) main_v6 main_c_1
  let main_v8 : IVec S_ 1 := andi main_v3 main_v7
  let main_v9 : FVec F S100000x18 .f32 := Host.absf main_arg5
  let main_cst_2 : FVec F S_ .f32 := constant S_ .f32 0x7F800000#32
  let main_v10 : FVec F S100000x18 .f32 := broadcastInDim S100000x18 ![] bcast_S_S100000x18 main_cst_2
  let main_v11 : IVec S100000x18 1 := cmpf .olt main_v9 main_v10
  let main_c_3 : IVec S_ 1 := constantI S_ 1 1#1
  let main_v12 : IVec S_ 1 := (fun x v => Host.reduce IntOp.andi x v reducesTo_S100000x18_S_d0_1 h_S_) main_v11 main_c_3
  let main_v13 : IVec S_ 1 := andi main_v8 main_v12
  let main_v14 : FVec F S32x96 .f32 := Host.absf main_arg6
  let main_cst_4 : FVec F S_ .f32 := constant S_ .f32 0x7F800000#32
  let main_v15 : FVec F S32x96 .f32 := broadcastInDim S32x96 ![] bcast_S_S32x96 main_cst_4
  let main_v16 : IVec S32x96 1 := cmpf .olt main_v14 main_v15
  fn_part1 (F := F) main_arg7 main_arg8 main_arg9 main_arg10 main_arg11 main_arg12 main_arg13 main_arg14 main_arg15 main_arg16 main_arg17 main_v13 main_v16
-- ==== Kernel.lean ====
abbrev S1000000 : Shape := ⟨1, ![1000000]⟩
abbrev S100000x3 : Shape := ⟨2, ![100000, 3]⟩
abbrev S100000x32 : Shape := ⟨2, ![100000, 32]⟩
abbrev S100000x27 : Shape := ⟨2, ![100000, 27]⟩
abbrev S100000x18 : Shape := ⟨2, ![100000, 18]⟩
abbrev S32x96 : Shape := ⟨2, ![32, 96]⟩
abbrev S32 : Shape := ⟨1, ![32]⟩
abbrev S30x18 : Shape := ⟨2, ![30, 18]⟩
abbrev S30 : Shape := ⟨1, ![30]⟩
abbrev S30x30 : Shape := ⟨2, ![30, 30]⟩
abbrev S5x30 : Shape := ⟨2, ![5, 30]⟩
abbrev S5 : Shape := ⟨1, ![5]⟩
abbrev S8x96 : Shape := ⟨2, ![8, 96]⟩
abbrev S8 : Shape := ⟨1, ![8]⟩
abbrev S1x8 : Shape := ⟨2, ![1, 8]⟩
abbrev S1 : Shape := ⟨1, ![1]⟩
abbrev S_ : Shape := ⟨0, ![]⟩
abbrev S1000000x1 : Shape := ⟨2, ![1000000, 1]⟩
abbrev S1000000x3 : Shape := ⟨2, ![1000000, 3]⟩
abbrev S1000000x3x1 : Shape := ⟨3, ![1000000, 3, 1]⟩
abbrev S1000000x3x32 : Shape := ⟨3, ![1000000, 3, 32]⟩
abbrev S1000000x96 : Shape := ⟨2, ![1000000, 96]⟩
abbrev S1000000x27 : Shape := ⟨2, ![1000000, 27]⟩
abbrev S1000000x18 : Shape := ⟨2, ![1000000, 18]⟩
abbrev S4000x96 : Shape := ⟨2, ![4000, 96]⟩
abbrev S4000x27 : Shape := ⟨2, ![4000, 27]⟩
abbrev S4000x18 : Shape := ⟨2, ![4000, 18]⟩
abbrev S4000x1 : Shape := ⟨2, ![4000, 1]⟩
abbrev S18x30 : Shape := ⟨2, ![18, 30]⟩
abbrev S4000x30 : Shape := ⟨2, ![4000, 30]⟩
abbrev S1x30 : Shape := ⟨2, ![1, 30]⟩
abbrev S30x5 : Shape := ⟨2, ![30, 5]⟩
abbrev S4000x5 : Shape := ⟨2, ![4000, 5]⟩
abbrev S1x5 : Shape := ⟨2, ![1, 5]⟩
abbrev S4000x32 : Shape := ⟨2, ![4000, 32]⟩
abbrev S96x32 : Shape := ⟨2, ![96, 32]⟩
abbrev S1x32 : Shape := ⟨2, ![1, 32]⟩
abbrev S96x8 : Shape := ⟨2, ![96, 8]⟩
abbrev S4000x8 : Shape := ⟨2, ![4000, 8]⟩
abbrev S8x1 : Shape := ⟨2, ![8, 1]⟩
abbrev S1x1 : Shape := ⟨2, ![1, 1]⟩

abbrev nBuf : Space → Nat
  | .hbm => 58
  | .vmem => 20
  | .smem => 0
  | _ => 0

abbrev bufTy : (tb : Table) → Fin (tcTables nBuf tb) → BufTy
  | .hbm, ⟨0, _⟩ => ⟨S1000000, .i32⟩
  | .hbm, ⟨1, _⟩ => ⟨S1000000, .i32⟩
  | .hbm, ⟨2, _⟩ => ⟨S100000x3, .i32⟩
  | .hbm, ⟨3, _⟩ => ⟨S100000x32, .f32⟩
  | .hbm, ⟨4, _⟩ => ⟨S100000x27, .f32⟩
  | .hbm, ⟨5, _⟩ => ⟨S100000x18, .f32⟩
  | .hbm, ⟨6, _⟩ => ⟨S32x96, .f32⟩
  | .hbm, ⟨7, _⟩ => ⟨S32, .f32⟩
  | .hbm, ⟨8, _⟩ => ⟨S30x18, .f32⟩
  | .hbm, ⟨9, _⟩ => ⟨S30, .f32⟩
  | .hbm, ⟨10, _⟩ => ⟨S30x30, .f32⟩
  | .hbm, ⟨11, _⟩ => ⟨S30, .f32⟩
  | .hbm, ⟨12, _⟩ => ⟨S5x30, .f32⟩
  | .hbm, ⟨13, _⟩ => ⟨S5, .f32⟩
  | .hbm, ⟨14, _⟩ => ⟨S8x96, .f32⟩
  | .hbm, ⟨15, _⟩ => ⟨S8, .f32⟩
  | .hbm, ⟨16, _⟩ => ⟨S1x8, .f32⟩
  | .hbm, ⟨17, _⟩ => ⟨S1, .f32⟩
  | .hbm, ⟨18, _⟩ => ⟨S100000x32, .bf16⟩
  | .hbm, ⟨19, _⟩ => ⟨S100000x18, .bf16⟩
  | .hbm, ⟨20, _⟩ => ⟨S_, .i32⟩
  | .hbm, ⟨21, _⟩ => ⟨S1000000, .i32⟩
  | .hbm, ⟨22, _⟩ => ⟨S1000000, .i1⟩
  | .hbm, ⟨23, _⟩ => ⟨S_, .i32⟩
  | .hbm, ⟨24, _⟩ => ⟨S1000000, .i32⟩
  | .hbm, ⟨25, _⟩ => ⟨S1000000, .i32⟩
  | .hbm, ⟨26, _⟩ => ⟨S1000000, .i32⟩
  | .hbm, ⟨27, _⟩ => ⟨S1000000x1, .i32⟩
  | .hbm, ⟨28, _⟩ => ⟨S1000000x3, .i32⟩
  | .hbm, ⟨29, _⟩ => ⟨S_, .i32⟩
  | .hbm, ⟨30, _⟩ => ⟨S1000000x3, .i32⟩
  | .hbm, ⟨31, _⟩ => ⟨S1000000x3, .i1⟩
  | .hbm, ⟨32, _⟩ => ⟨S_, .i32⟩
  | .hbm, ⟨33, _⟩ => ⟨S1000000x3, .i32⟩
  | .hbm, ⟨34, _⟩ => ⟨S1000000x3, .i32⟩
  | .hbm, ⟨35, _⟩ => ⟨S1000000x3, .i32⟩
  | .hbm, ⟨36, _⟩ => ⟨S1000000x3x1, .i32⟩
  | .hbm, ⟨37, _⟩ => ⟨S1000000x3x32, .bf16⟩
  | .hbm, ⟨38, _⟩ => ⟨S1000000x96, .bf16⟩
  | .hbm, ⟨39, _⟩ => ⟨S_, .i32⟩
  | .hbm, ⟨40, _⟩ => ⟨S1000000, .i32⟩
  | .hbm, ⟨41, _⟩ => ⟨S1000000, .i1⟩
  | .hbm, ⟨42, _⟩ => ⟨S_, .i32⟩
  | .hbm, ⟨43, _⟩ => ⟨S1000000, .i32⟩
  | .hbm, ⟨44, _⟩ => ⟨S1000000, .i32⟩
  | .hbm, ⟨45, _⟩ => ⟨S1000000, .i32⟩
  | .hbm, ⟨46, _⟩ => ⟨S1000000x1, .i32⟩
  | .hbm, ⟨47, _⟩ => ⟨S1000000x27, .f32⟩
  | .hbm, ⟨48, _⟩ => ⟨S_, .i32⟩
  | .hbm, ⟨49, _⟩ => ⟨S1000000, .i32⟩
  | .hbm, ⟨50, _⟩ => ⟨S1000000, .i1⟩
  | .hbm, ⟨51, _⟩ => ⟨S_, .i32⟩
  | .hbm, ⟨52, _⟩ => ⟨S1000000, .i32⟩
  | .hbm, ⟨53, _⟩ => ⟨S1000000, .i32⟩
  | .hbm, ⟨54, _⟩ => ⟨S1000000, .i32⟩
  | .hbm, ⟨55, _⟩ => ⟨S1000000x1, .i32⟩
  | .hbm, ⟨56, _⟩ => ⟨S1000000x18, .bf16⟩
  | .hbm, ⟨57, _⟩ => ⟨S1000000x1, .f32⟩
  | .local _ .vmem, ⟨0, _⟩ => ⟨S4000x96, .bf16⟩
  | .local _ .vmem, ⟨1, _⟩ => ⟨S4000x96, .bf16⟩
  | .local _ .vmem, ⟨2, _⟩ => ⟨S4000x27, .f32⟩
  | .local _ .vmem, ⟨3, _⟩ => ⟨S4000x27, .f32⟩
  | .local _ .vmem, ⟨4, _⟩ => ⟨S4000x18, .bf16⟩
  | .local _ .vmem, ⟨5, _⟩ => ⟨S4000x18, .bf16⟩
  | .local _ .vmem, ⟨6, _⟩ => ⟨S32x96, .f32⟩
  | .local _ .vmem, ⟨7, _⟩ => ⟨S32, .f32⟩
  | .local _ .vmem, ⟨8, _⟩ => ⟨S30x18, .f32⟩
  | .local _ .vmem, ⟨9, _⟩ => ⟨S30, .f32⟩
  | .local _ .vmem, ⟨10, _⟩ => ⟨S30x30, .f32⟩
  | .local _ .vmem, ⟨11, _⟩ => ⟨S30, .f32⟩
  | .local _ .vmem, ⟨12, _⟩ => ⟨S5x30, .f32⟩
  | .local _ .vmem, ⟨13, _⟩ => ⟨S5, .f32⟩
  | .local _ .vmem, ⟨14, _⟩ => ⟨S8x96, .f32⟩
  | .local _ .vmem, ⟨15, _⟩ => ⟨S8, .f32⟩
  | .local _ .vmem, ⟨16, _⟩ => ⟨S1x8, .f32⟩
  | .local _ .vmem, ⟨17, _⟩ => ⟨S1, .f32⟩
  | .local _ .vmem, ⟨18, _⟩ => ⟨S4000x1, .f32⟩
  | .local _ .vmem, ⟨19, _⟩ => ⟨S4000x1, .f32⟩
  | _, _ => ⟨S1000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_c : Ref sig .tc := ⟨.hbm, 20, rfl⟩
abbrev main_v2 : Ref sig .tc := ⟨.hbm, 21, rfl⟩
abbrev main_v3 : Ref sig .tc := ⟨.hbm, 22, rfl⟩
abbrev main_c_0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_c_1 : Ref sig .tc := ⟨.hbm, 29, rfl⟩
abbrev main_v9 : Ref sig .tc := ⟨.hbm, 30, rfl⟩
abbrev main_v10 : Ref sig .tc := ⟨.hbm, 31, rfl⟩
abbrev main_c_2 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c_3 : Ref sig .tc := ⟨.hbm, 39, rfl⟩
abbrev main_v17 : Ref sig .tc := ⟨.hbm, 40, rfl⟩
abbrev main_v18 : Ref sig .tc := ⟨.hbm, 41, rfl⟩
abbrev main_c_4 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_c_5 : Ref sig .tc := ⟨.hbm, 48, rfl⟩
abbrev main_v24 : Ref sig .tc := ⟨.hbm, 49, rfl⟩
abbrev main_v25 : Ref sig .tc := ⟨.hbm, 50, rfl⟩
abbrev main_c_6 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x96 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x27 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x18 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S30x18 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S30 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S30x30 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S30 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S5x30 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S5 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x96 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S4000x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  bitsLt_bf16_f32 : FTy.bits .bf16 < FTy.bits .f32
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x3 : S_.BroadcastsInDim S1000000x3 (![] : Fin 0 → Fin S1000000x3.rank)
  bcast_S1000000x3_S1000000x3x1_0_1 : S1000000x3.BroadcastsInDim S1000000x3x1 (![0, 1] : Fin 2 → Fin S1000000x3x1.rank)
  shapeCasts_S1000000x3x32_S1000000x96 : S1000000x3x32.ShapeCasts S1000000x96
  inb_S4000x18_S4000x18_0_0 : ∀ a, (![0, 0] : Fin 2 → Nat) a + S4000x18.size a ≤ S4000x18.size a
  h_S4000x18 : 0 < S4000x18.numel
  shapeCasts_S4000x18_S4000x18 : S4000x18.ShapeCasts S4000x18
  inb_S30x18_S30x18_0_0 : ∀ a, (![0, 0] : Fin 2 → Nat) a + S30x18.size a ≤ S30x18.size a
  h_S30x18 : 0 < S30x18.numel
  transposes_S30x18_p1_0_S18x30 : S30x18.Transposes [1, 0] S18x30
  inb_S30_S30_0 : ∀ a, (![0] : Fin 1 → Nat) a + S30.size a ≤ S30.size a
  h_S30 : 0 < S30.numel
  shapeCasts_S30_S1x30 : S30.ShapeCasts S1x30
  broadcasts_S1x30_S4000x30 : S1x30.Broadcasts S4000x30
  inb_S30x30_S30x30_0_0 : ∀ a, (![0, 0] : Fin 2 → Nat) a + S30x30.size a ≤ S30x30.size a
  h_S30x30 : 0 < S30x30.numel
  transposes_S30x30_p1_0_S30x30 : S30x30.Transposes [1, 0] S30x30
  inb_S5x30_S5x30_0_0 : ∀ a, (![0, 0] : Fin 2 → Nat) a + S5x30.size a ≤ S5x30.size a
  h_S5x30 : 0 < S5x30.numel
  transposes_S5x30_p1_0_S30x5 : S5x30.Transposes [1, 0] S30x5
  inb_S5_S5_0 : ∀ a, (![0] : Fin 1 → Nat) a + S5.size a ≤ S5.size a
  h_S5 : 0 < S5.numel
  shapeCasts_S5_S1x5 : S5.ShapeCasts S1x5
  broadcasts_S1x5_S4000x5 : S1x5.Broadcasts S4000x5
  inb_S4000x27_S4000x27_0_0 : ∀ a, (![0, 0] : Fin 2 → Nat) a + S4000x27.size a ≤ S4000x27.size a
  h_S4000x27 : 0 < S4000x27.numel
  shapeCasts_S4000x27_S4000x27 : S4000x27.ShapeCasts S4000x27
  concatenates_S4000x27_S4000x5_S4000x32_d1 : Shape.Concatenates [S4000x27, S4000x5] S4000x32 1
  inb_S4000x96_S4000x96_0_0 : ∀ a, (![0, 0] : Fin 2 → Nat) a + S4000x96.size a ≤ S4000x96.size a
  h_S4000x96 : 0 < S4000x96.numel
  shapeCasts_S4000x96_S4000x96 : S4000x96.ShapeCasts S4000x96
  inb_S32x96_S32x96_0_0 : ∀ a, (![0, 0] : Fin 2 → Nat) a + S32x96.size a ≤ S32x96.size a
  h_S32x96 : 0 < S32x96.numel
  transposes_S32x96_p1_0_S96x32 : S32x96.Transposes [1, 0] S96x32
  inb_S32_S32_0 : ∀ a, (![0] : Fin 1 → Nat) a + S32.size a ≤ S32.size a
  h_S32 : 0 < S32.numel
  shapeCasts_S32_S1x32 : S32.ShapeCasts S1x32
  broadcasts_S1x32_S4000x32 : S1x32.Broadcasts S4000x32
  concatenates_S4000x32_S4000x32_S4000x32_S4000x96_d1 : Shape.Concatenates [S4000x32, S4000x32, S4000x32] S4000x96 1
  inb_S8x96_S8x96_0_0 : ∀ a, (![0, 0] : Fin 2 → Nat) a + S8x96.size a ≤ S8x96.size a
  h_S8x96 : 0 < S8x96.numel
  transposes_S8x96_p1_0_S96x8 : S8x96.Transposes [1, 0] S96x8
  inb_S8_S8_0 : ∀ a, (![0] : Fin 1 → Nat) a + S8.size a ≤ S8.size a
  h_S8 : 0 < S8.numel
  shapeCasts_S8_S1x8 : S8.ShapeCasts S1x8
  broadcasts_S1x8_S4000x8 : S1x8.Broadcasts S4000x8
  inb_S1x8_S1x8_0_0 : ∀ a, (![0, 0] : Fin 2 → Nat) a + S1x8.size a ≤ S1x8.size a
  h_S1x8 : 0 < S1x8.numel
  transposes_S1x8_p1_0_S8x1 : S1x8.Transposes [1, 0] S8x1
  inb_S1_S1_0 : ∀ a, (![0] : Fin 1 → Nat) a + S1.size a ≤ S1.size a
  h_S1 : 0 < S1.numel
  shapeCasts_S1_S1x1 : S1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  gather_S100000x3_S1000000x1_S1000000x3_1_0_n_n_0_1_13_wf : GatherDims.WF S100000x3 S1000000x1 S1000000x3 [1] [0] [] [0] [] 1 ![1, 3]
  gather_S100000x32_S1000000x3x1_S1000000x3x32_2_0_n_n_0_2_132_wf : GatherDims.WF S100000x32 S1000000x3x1 S1000000x3x32 [2] [0] [] [0] [] 2 ![1, 32]
  gather_S100000x27_S1000000x1_S1000000x27_1_0_n_n_0_1_127_wf : GatherDims.WF S100000x27 S1000000x1 S1000000x27 [1] [0] [] [0] [] 1 ![1, 27]
  gather_S100000x18_S1000000x1_S1000000x18_1_0_n_n_0_1_118_wf : GatherDims.WF S100000x18 S1000000x1 S1000000x18 [1] [0] [] [0] [] 1 ![1, 18]
  dot_S4000x18_S18x30_S4000x30_1_0_0_1_n_n_wf : DotDims.WF S4000x18 S18x30 S4000x30 [1] [0] [0] [1] [] []
  dot_S4000x30_S30x30_S4000x30_1_0_0_1_n_n_wf : DotDims.WF S4000x30 S30x30 S4000x30 [1] [0] [0] [1] [] []
  dot_S4000x30_S30x5_S4000x5_1_0_0_1_n_n_wf : DotDims.WF S4000x30 S30x5 S4000x5 [1] [0] [0] [1] [] []
  dot_S4000x96_S96x32_S4000x32_1_0_0_1_n_n_wf : DotDims.WF S4000x96 S96x32 S4000x32 [1] [0] [0] [1] [] []
  dot_S4000x96_S96x8_S4000x8_1_0_0_1_n_n_wf : DotDims.WF S4000x96 S96x8 S4000x8 [1] [0] [0] [1] [] []
  dot_S4000x8_S8x1_S4000x1_1_0_0_1_n_n_wf : DotDims.WF S4000x8 S8x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x96.size a ≤ S1000000x96.size a
  hwx0_0 : ∀ i : grid0.Coords, EltTy.bits .bf16 = 32 ∨ (Rect.block (s := S1000000x96) S4000x96.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x27.size a ≤ S1000000x27.size a
  hwx0_1 : ∀ i : grid0.Coords, EltTy.bits .f32 = 32 ∨ (Rect.block (s := S1000000x27) S4000x27.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x18.size a ≤ S1000000x18.size a
  hwx0_2 : ∀ i : grid0.Coords, EltTy.bits .bf16 = 32 ∨ (Rect.block (s := S1000000x18) S4000x18.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x96.size a ≤ S32x96.size a
  hwx0_3 : ∀ i : grid0.Coords, EltTy.bits .f32 = 32 ∨ (Rect.block (s := S32x96) S32x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S30x18.size a ≤ S30x18.size a
  hwx0_5 : ∀ i : grid0.Coords, EltTy.bits .f32 = 32 ∨ (Rect.block (s := S30x18) S30x18.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S30.size a ≤ S30.size a
  hwx0_6 : ∀ i : grid0.Coords, EltTy.bits .f32 = 32 ∨ (Rect.block (s := S30) S30.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S30x30.size a ≤ S30x30.size a
  hwx0_7 : ∀ i : grid0.Coords, EltTy.bits .f32 = 32 ∨ (Rect.block (s := S30x30) S30x30.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S30.size a ≤ S30.size a
  hwx0_8 : ∀ i : grid0.Coords, EltTy.bits .f32 = 32 ∨ (Rect.block (s := S30) S30.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S5x30.size a ≤ S5x30.size a
  hwx0_9 : ∀ i : grid0.Coords, EltTy.bits .f32 = 32 ∨ (Rect.block (s := S5x30) S5x30.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S5.size a ≤ S5.size a
  hwx0_10 : ∀ i : grid0.Coords, EltTy.bits .f32 = 32 ∨ (Rect.block (s := S5) S5.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S8x96.size a ≤ S8x96.size a
  hwx0_11 : ∀ i : grid0.Coords, EltTy.bits .f32 = 32 ∨ (Rect.block (s := S8x96) S8x96.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S8.size a ≤ S8.size a
  hwx0_12 : ∀ i : grid0.Coords, EltTy.bits .f32 = 32 ∨ (Rect.block (s := S8) S8.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x8.size a ≤ S1x8.size a
  hwx0_13 : ∀ i : grid0.Coords, EltTy.bits .f32 = 32 ∨ (Rect.block (s := S1x8) S1x8.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1.size a ≤ S1.size a
  hwx0_14 : ∀ i : grid0.Coords, EltTy.bits .f32 = 32 ∨ (Rect.block (s := S1) S1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S4000x1.size a ≤ S1000000x1.size a
  hwx0_15 : ∀ i : grid0.Coords, EltTy.bits .f32 = 32 ∨ (Rect.block (s := S1000000x1) S4000x1.size (cc0_transform_15 i) (hinb0_15 i)).WholeWords (EltTy.packing .f32)

variable [Facts₀]

def gather_S100000x3_S1000000x1_S1000000x3_1_0_n_n_0_1_13 : GatherDims S100000x3 S1000000x1 S1000000x3 where
  offsetDims := [1]
  collapsedSliceDims := [0]
  operandBatchingDims := []
  startIndicesBatchingDims := []
  startIndexMap := [0]
  indexVectorDim := 1
  sliceSizes := ![1, 3]
  wf := gather_S100000x3_S1000000x1_S1000000x3_1_0_n_n_0_1_13_wf
def gather_S100000x32_S1000000x3x1_S1000000x3x32_2_0_n_n_0_2_132 : GatherDims S100000x32 S1000000x3x1 S1000000x3x32 where
  offsetDims := [2]
  collapsedSliceDims := [0]
  operandBatchingDims := []
  startIndicesBatchingDims := []
  startIndexMap := [0]
  indexVectorDim := 2
  sliceSizes := ![1, 32]
  wf := gather_S100000x32_S1000000x3x1_S1000000x3x32_2_0_n_n_0_2_132_wf
def gather_S100000x27_S1000000x1_S1000000x27_1_0_n_n_0_1_127 : GatherDims S100000x27 S1000000x1 S1000000x27 where
  offsetDims := [1]
  collapsedSliceDims := [0]
  operandBatchingDims := []
  startIndicesBatchingDims := []
  startIndexMap := [0]
  indexVectorDim := 1
  sliceSizes := ![1, 27]
  wf := gather_S100000x27_S1000000x1_S1000000x27_1_0_n_n_0_1_127_wf
def gather_S100000x18_S1000000x1_S1000000x18_1_0_n_n_0_1_118 : GatherDims S100000x18 S1000000x1 S1000000x18 where
  offsetDims := [1]
  collapsedSliceDims := [0]
  operandBatchingDims := []
  startIndicesBatchingDims := []
  startIndexMap := [0]
  indexVectorDim := 1
  sliceSizes := ![1, 18]
  wf := gather_S100000x18_S1000000x1_S1000000x18_1_0_n_n_0_1_118_wf
def dot_S4000x18_S18x30_S4000x30_1_0_0_1_n_n : DotDims S4000x18 S18x30 S4000x30 where
  lhsContracting := [1]
  rhsContracting := [0]
  lhsNonContracting := [0]
  rhsNonContracting := [1]
  lhsBatch := []
  rhsBatch := []
  wf := dot_S4000x18_S18x30_S4000x30_1_0_0_1_n_n_wf
def dot_S4000x30_S30x30_S4000x30_1_0_0_1_n_n : DotDims S4000x30 S30x30 S4000x30 where
  lhsContracting := [1]
  rhsContracting := [0]
  lhsNonContracting := [0]
  rhsNonContracting := [1]
  lhsBatch := []
  rhsBatch := []
  wf := dot_S4000x30_S30x30_S4000x30_1_0_0_1_n_n_wf
def dot_S4000x30_S30x5_S4000x5_1_0_0_1_n_n : DotDims S4000x30 S30x5 S4000x5 where
  lhsContracting := [1]
  rhsContracting := [0]
  lhsNonContracting := [0]
  rhsNonContracting := [1]
  lhsBatch := []
  rhsBatch := []
  wf := dot_S4000x30_S30x5_S4000x5_1_0_0_1_n_n_wf
def dot_S4000x96_S96x32_S4000x32_1_0_0_1_n_n : DotDims S4000x96 S96x32 S4000x32 where
  lhsContracting := [1]
  rhsContracting := [0]
  lhsNonContracting := [0]
  rhsNonContracting := [1]
  lhsBatch := []
  rhsBatch := []
  wf := dot_S4000x96_S96x32_S4000x32_1_0_0_1_n_n_wf
def dot_S4000x96_S96x8_S4000x8_1_0_0_1_n_n : DotDims S4000x96 S96x8 S4000x8 where
  lhsContracting := [1]
  rhsContracting := [0]
  lhsNonContracting := [0]
  rhsNonContracting := [1]
  lhsBatch := []
  rhsBatch := []
  wf := dot_S4000x96_S96x8_S4000x8_1_0_0_1_n_n_wf
def dot_S4000x8_S8x1_S4000x1_1_0_0_1_n_n : DotDims S4000x8 S8x1 S4000x1 where
  lhsContracting := [1]
  rhsContracting := [0]
  lhsNonContracting := [0]
  rhsNonContracting := [1]
  lhsBatch := []
  rhsBatch := []
  wf := dot_S4000x8_S8x1_S4000x1_1_0_0_1_n_n_wf

abbrev win0_0 : Pipeline.Window sig grid0 :=
  Pipeline.Window.ofSpec (Memref.whole main_v16) S4000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S4000x27.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S4000x18.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S32x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S30x18.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S30.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S30x30.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg11) S30.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg12) S5x30.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg13) S5.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg14) S8x96.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg15) S8.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg16) S1x8.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg17) S1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v31) S4000x1.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S1000000 : Shape := ⟨1, ![1000000]⟩
abbrev S100000x3 : Shape := ⟨2, ![100000, 3]⟩
abbrev S100000x32 : Shape := ⟨2, ![100000, 32]⟩
abbrev S100000x27 : Shape := ⟨2, ![100000, 27]⟩
abbrev S100000x18 : Shape := ⟨2, ![100000, 18]⟩
abbrev S32x96 : Shape := ⟨2, ![32, 96]⟩
abbrev S32 : Shape := ⟨1, ![32]⟩
abbrev S30x18 : Shape := ⟨2, ![30, 18]⟩
abbrev S30 : Shape := ⟨1, ![30]⟩
abbrev S30x30 : Shape := ⟨2, ![30, 30]⟩
abbrev S5x30 : Shape := ⟨2, ![5, 30]⟩
abbrev S5 : Shape := ⟨1, ![5]⟩
abbrev S8x96 : Shape := ⟨2, ![8, 96]⟩
abbrev S8 : Shape := ⟨1, ![8]⟩
abbrev S1x8 : Shape := ⟨2, ![1, 8]⟩
abbrev S1 : Shape := ⟨1, ![1]⟩
abbrev S_ : Shape := ⟨0, ![]⟩
abbrev S1000000x1 : Shape := ⟨2, ![1000000, 1]⟩
abbrev S1000000x18 : Shape := ⟨2, ![1000000, 18]⟩
abbrev S18x30 : Shape := ⟨2, ![18, 30]⟩
abbrev S1000000x30 : Shape := ⟨2, ![1000000, 30]⟩
abbrev S1x30 : Shape := ⟨2, ![1, 30]⟩
abbrev S30x5 : Shape := ⟨2, ![30, 5]⟩
abbrev S1000000x5 : Shape := ⟨2, ![1000000, 5]⟩
abbrev S1x5 : Shape := ⟨2, ![1, 5]⟩
abbrev S1000000x27 : Shape := ⟨2, ![1000000, 27]⟩
abbrev S1000000x32 : Shape := ⟨2, ![1000000, 32]⟩
abbrev S1000000x3 : Shape := ⟨2, ![1000000, 3]⟩
abbrev S1000000x3x1 : Shape := ⟨3, ![1000000, 3, 1]⟩
abbrev S1000000x3x32 : Shape := ⟨3, ![1000000, 3, 32]⟩
abbrev S1000000x96 : Shape := ⟨2, ![1000000, 96]⟩
abbrev S96x32 : Shape := ⟨2, ![96, 32]⟩
abbrev S1x32 : Shape := ⟨2, ![1, 32]⟩
abbrev S96x8 : Shape := ⟨2, ![96, 8]⟩
abbrev S1000000x8 : Shape := ⟨2, ![1000000, 8]⟩
abbrev S8x1 : Shape := ⟨2, ![8, 1]⟩
abbrev S1x1 : Shape := ⟨2, ![1, 1]⟩

abbrev nBuf : Space → Nat
  | .hbm => 99
  | .vmem => 0
  | .smem => 0
  | _ => 0

abbrev bufTy : (tb : Table) → Fin (tcTables nBuf tb) → BufTy
  | .hbm, ⟨0, _⟩ => ⟨S1000000, .i32⟩
  | .hbm, ⟨1, _⟩ => ⟨S1000000, .i32⟩
  | .hbm, ⟨2, _⟩ => ⟨S100000x3, .i32⟩
  | .hbm, ⟨3, _⟩ => ⟨S100000x32, .f32⟩
  | .hbm, ⟨4, _⟩ => ⟨S100000x27, .f32⟩
  | .hbm, ⟨5, _⟩ => ⟨S100000x18, .f32⟩
  | .hbm, ⟨6, _⟩ => ⟨S32x96, .f32⟩
  | .hbm, ⟨7, _⟩ => ⟨S32, .f32⟩
  | .hbm, ⟨8, _⟩ => ⟨S30x18, .f32⟩
  | .hbm, ⟨9, _⟩ => ⟨S30, .f32⟩
  | .hbm, ⟨10, _⟩ => ⟨S30x30, .f32⟩
  | .hbm, ⟨11, _⟩ => ⟨S30, .f32⟩
  | .hbm, ⟨12, _⟩ => ⟨S5x30, .f32⟩
  | .hbm, ⟨13, _⟩ => ⟨S5, .f32⟩
  | .hbm, ⟨14, _⟩ => ⟨S8x96, .f32⟩
  | .hbm, ⟨15, _⟩ => ⟨S8, .f32⟩
  | .hbm, ⟨16, _⟩ => ⟨S1x8, .f32⟩
  | .hbm, ⟨17, _⟩ => ⟨S1, .f32⟩
  | .hbm, ⟨18, _⟩ => ⟨S_, .i32⟩
  | .hbm, ⟨19, _⟩ => ⟨S1000000, .i32⟩
  | .hbm, ⟨20, _⟩ => ⟨S1000000, .i1⟩
  | .hbm, ⟨21, _⟩ => ⟨S_, .i32⟩
  | .hbm, ⟨22, _⟩ => ⟨S1000000, .i32⟩
  | .hbm, ⟨23, _⟩ => ⟨S1000000, .i32⟩
  | .hbm, ⟨24, _⟩ => ⟨S1000000, .i32⟩
  | .hbm, ⟨25, _⟩ => ⟨S1000000x1, .i32⟩
  | .hbm, ⟨26, _⟩ => ⟨S1000000x18, .f32⟩
  | .hbm, ⟨27, _⟩ => ⟨S18x30, .f32⟩
  | .hbm, ⟨28, _⟩ => ⟨S1000000x30, .f32⟩
  | .hbm, ⟨29, _⟩ => ⟨S1x30, .f32⟩
  | .hbm, ⟨30, _⟩ => ⟨S1000000x30, .f32⟩
  | .hbm, ⟨31, _⟩ => ⟨S1000000x30, .f32⟩
  | .hbm, ⟨32, _⟩ => ⟨S30x30, .f32⟩
  | .hbm, ⟨33, _⟩ => ⟨S1000000x30, .f32⟩
  | .hbm, ⟨34, _⟩ => ⟨S1x30, .f32⟩
  | .hbm, ⟨35, _⟩ => ⟨S1000000x30, .f32⟩
  | .hbm, ⟨36, _⟩ => ⟨S1000000x30, .f32⟩
  | .hbm, ⟨37, _⟩ => ⟨S30x5, .f32⟩
  | .hbm, ⟨38, _⟩ => ⟨S1000000x5, .f32⟩
  | .hbm, ⟨39, _⟩ => ⟨S1x5, .f32⟩
  | .hbm, ⟨40, _⟩ => ⟨S1000000x5, .f32⟩
  | .hbm, ⟨41, _⟩ => ⟨S1000000x5, .f32⟩
  | .hbm, ⟨42, _⟩ => ⟨S_, .i32⟩
  | .hbm, ⟨43, _⟩ => ⟨S1000000, .i32⟩
  | .hbm, ⟨44, _⟩ => ⟨S1000000, .i1⟩
  | .hbm, ⟨45, _⟩ => ⟨S_, .i32⟩
  | .hbm, ⟨46, _⟩ => ⟨S1000000, .i32⟩
  | .hbm, ⟨47, _⟩ => ⟨S1000000, .i32⟩
  | .hbm, ⟨48, _⟩ => ⟨S1000000, .i32⟩
  | .hbm, ⟨49, _⟩ => ⟨S1000000x1, .i32⟩
  | .hbm, ⟨50, _⟩ => ⟨S1000000x27, .f32⟩
  | .hbm, ⟨51, _⟩ => ⟨S1000000x32, .f32⟩
  | .hbm, ⟨52, _⟩ => ⟨S_, .i32⟩
  | .hbm, ⟨53, _⟩ => ⟨S1000000, .i32⟩
  | .hbm, ⟨54, _⟩ => ⟨S1000000, .i1⟩
  | .hbm, ⟨55, _⟩ => ⟨S_, .i32⟩
  | .hbm, ⟨56, _⟩ => ⟨S1000000, .i32⟩
  | .hbm, ⟨57, _⟩ => ⟨S1000000, .i32⟩
  | .hbm, ⟨58, _⟩ => ⟨S1000000, .i32⟩
  | .hbm, ⟨59, _⟩ => ⟨S1000000x1, .i32⟩
  | .hbm, ⟨60, _⟩ => ⟨S1000000x3, .i32⟩
  | .hbm, ⟨61, _⟩ => ⟨S_, .i32⟩
  | .hbm, ⟨62, _⟩ => ⟨S1000000x3, .i32⟩
  | .hbm, ⟨63, _⟩ => ⟨S1000000x3, .i1⟩
  | .hbm, ⟨64, _⟩ => ⟨S_, .i32⟩
  | .hbm, ⟨65, _⟩ => ⟨S1000000x3, .i32⟩
  | .hbm, ⟨66, _⟩ => ⟨S1000000x3, .i32⟩
  | .hbm, ⟨67, _⟩ => ⟨S1000000x3, .i32⟩
  | .hbm, ⟨68, _⟩ => ⟨S1000000x3x1, .i32⟩
  | .hbm, ⟨69, _⟩ => ⟨S1000000x3x32, .f32⟩
  | .hbm, ⟨70, _⟩ => ⟨S1000000x96, .f32⟩
  | .hbm, ⟨71, _⟩ => ⟨S96x32, .f32⟩
  | .hbm, ⟨72, _⟩ => ⟨S1000000x32, .f32⟩
  | .hbm, ⟨73, _⟩ => ⟨S1x32, .f32⟩
  | .hbm, ⟨74, _⟩ => ⟨S1000000x32, .f32⟩
  | .hbm, ⟨75, _⟩ => ⟨S1000000x32, .f32⟩
  | .hbm, ⟨76, _⟩ => ⟨S1000000x32, .f32⟩
  | .hbm, ⟨77, _⟩ => ⟨S1000000x96, .f32⟩
  | .hbm, ⟨78, _⟩ => ⟨S96x8, .f32⟩
  | .hbm, ⟨79, _⟩ => ⟨S1000000x8, .f32⟩
  | .hbm, ⟨80, _⟩ => ⟨S1x8, .f32⟩
  | .hbm, ⟨81, _⟩ => ⟨S1000000x8, .f32⟩
  | .hbm, ⟨82, _⟩ => ⟨S1000000x8, .f32⟩
  | .hbm, ⟨83, _⟩ => ⟨S_, .f32⟩
  | .hbm, ⟨84, _⟩ => ⟨S1000000x8, .f32⟩
  | .hbm, ⟨85, _⟩ => ⟨S1000000x8, .f32⟩
  | .hbm, ⟨86, _⟩ => ⟨S8x1, .f32⟩
  | .hbm, ⟨87, _⟩ => ⟨S1000000x1, .f32⟩
  | .hbm, ⟨88, _⟩ => ⟨S1x1, .f32⟩
  | .hbm, ⟨89, _⟩ => ⟨S1000000x1, .f32⟩
  | .hbm, ⟨90, _⟩ => ⟨S1000000x1, .f32⟩
  | .hbm, ⟨91, _⟩ => ⟨S1000000x1, .f32⟩
  | .hbm, ⟨92, _⟩ => ⟨S1000000x1, .f32⟩
  | .hbm, ⟨93, _⟩ => ⟨S_, .f32⟩
  | .hbm, ⟨94, _⟩ => ⟨S1000000x1, .f32⟩
  | .hbm, ⟨95, _⟩ => ⟨S1000000x1, .f32⟩
  | .hbm, ⟨96, _⟩ => ⟨S_, .f32⟩
  | .hbm, ⟨97, _⟩ => ⟨S1000000x1, .f32⟩
  | .hbm, ⟨98, _⟩ => ⟨S1000000x1, .f32⟩
  | _, _ => ⟨S1000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_1 : Ref sig .tc := ⟨.hbm, 42, rfl⟩
abbrev main_v22 : Ref sig .tc := ⟨.hbm, 43, rfl⟩
abbrev main_v23 : Ref sig .tc := ⟨.hbm, 44, rfl⟩
abbrev main_c_2 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_3 : Ref sig .tc := ⟨.hbm, 52, rfl⟩
abbrev main_v30 : Ref sig .tc := ⟨.hbm, 53, rfl⟩
abbrev main_v31 : Ref sig .tc := ⟨.hbm, 54, rfl⟩
abbrev main_c_4 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_5 : Ref sig .tc := ⟨.hbm, 61, rfl⟩
abbrev main_v37 : Ref sig .tc := ⟨.hbm, 62, rfl⟩
abbrev main_v38 : Ref sig .tc := ⟨.hbm, 63, rfl⟩
abbrev main_c_6 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_call0_cst : Ref sig .tc := ⟨.hbm, 83, rfl⟩
abbrev main_call0_v0 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst : Ref sig .tc := ⟨.hbm, 93, rfl⟩
abbrev main_v65 : Ref sig .tc := ⟨.hbm, 94, rfl⟩
abbrev main_v66 : Ref sig .tc := ⟨.hbm, 95, rfl⟩
abbrev main_cst_7 : Ref sig .tc := ⟨.hbm, 96, rfl⟩
abbrev main_v67 : Ref sig .tc := ⟨.hbm, 97, rfl⟩
abbrev main_v68 : Ref sig .tc := ⟨.hbm, 98, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  transposes_S30x18_S18x30_1_0 : S30x18.Transposes [1, 0] S18x30
  bcast_S30_S1x30_1 : S30.BroadcastsInDim S1x30 (![1] : Fin 1 → Fin S1x30.rank)
  bcast_S1x30_S1000000x30_0_1 : S1x30.BroadcastsInDim S1000000x30 (![0, 1] : Fin 2 → Fin S1000000x30.rank)
  transposes_S30x30_S30x30_1_0 : S30x30.Transposes [1, 0] S30x30
  transposes_S5x30_S30x5_1_0 : S5x30.Transposes [1, 0] S30x5
  bcast_S5_S1x5_1 : S5.BroadcastsInDim S1x5 (![1] : Fin 1 → Fin S1x5.rank)
  bcast_S1x5_S1000000x5_0_1 : S1x5.BroadcastsInDim S1000000x5 (![0, 1] : Fin 2 → Fin S1000000x5.rank)
  concatenates_S1000000x27_S1000000x5_S1000000x32_d1 : Shape.Concatenates [S1000000x27, S1000000x5] S1000000x32 1
  bcast_S_S1000000x3 : S_.BroadcastsInDim S1000000x3 (![] : Fin 0 → Fin S1000000x3.rank)
  bcast_S1000000x3_S1000000x3x1_0_1 : S1000000x3.BroadcastsInDim S1000000x3x1 (![0, 1] : Fin 2 → Fin S1000000x3x1.rank)
  shapeCasts_S1000000x3x32_S1000000x96 : S1000000x3x32.ShapeCasts S1000000x96
  transposes_S32x96_S96x32_1_0 : S32x96.Transposes [1, 0] S96x32
  bcast_S32_S1x32_1 : S32.BroadcastsInDim S1x32 (![1] : Fin 1 → Fin S1x32.rank)
  bcast_S1x32_S1000000x32_0_1 : S1x32.BroadcastsInDim S1000000x32 (![0, 1] : Fin 2 → Fin S1000000x32.rank)
  concatenates_S1000000x32_S1000000x32_S1000000x32_S1000000x96_d1 : Shape.Concatenates [S1000000x32, S1000000x32, S1000000x32] S1000000x96 1
  transposes_S8x96_S96x8_1_0 : S8x96.Transposes [1, 0] S96x8
  bcast_S8_S1x8_1 : S8.BroadcastsInDim S1x8 (![1] : Fin 1 → Fin S1x8.rank)
  bcast_S1x8_S1000000x8_0_1 : S1x8.BroadcastsInDim S1000000x8 (![0, 1] : Fin 2 → Fin S1000000x8.rank)
  bcast_S_S1000000x8 : S_.BroadcastsInDim S1000000x8 (![] : Fin 0 → Fin S1000000x8.rank)
  transposes_S1x8_S8x1_1_0 : S1x8.Transposes [1, 0] S8x1
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  bcast_S_S1000000x1 : S_.BroadcastsInDim S1000000x1 (![] : Fin 0 → Fin S1000000x1.rank)
  gather_S100000x18_S1000000x1_S1000000x18_1_0_n_n_0_1_118_wf : GatherDims.WF S100000x18 S1000000x1 S1000000x18 [1] [0] [] [0] [] 1 ![1, 18]
  dot_S1000000x18_S18x30_S1000000x30_1_0_0_1_n_n_wf : DotDims.WF S1000000x18 S18x30 S1000000x30 [1] [0] [0] [1] [] []
  dot_S1000000x30_S30x30_S1000000x30_1_0_0_1_n_n_wf : DotDims.WF S1000000x30 S30x30 S1000000x30 [1] [0] [0] [1] [] []
  dot_S1000000x30_S30x5_S1000000x5_1_0_0_1_n_n_wf : DotDims.WF S1000000x30 S30x5 S1000000x5 [1] [0] [0] [1] [] []
  gather_S100000x27_S1000000x1_S1000000x27_1_0_n_n_0_1_127_wf : GatherDims.WF S100000x27 S1000000x1 S1000000x27 [1] [0] [] [0] [] 1 ![1, 27]
  gather_S100000x3_S1000000x1_S1000000x3_1_0_n_n_0_1_13_wf : GatherDims.WF S100000x3 S1000000x1 S1000000x3 [1] [0] [] [0] [] 1 ![1, 3]
  gather_S100000x32_S1000000x3x1_S1000000x3x32_2_0_n_n_0_2_132_wf : GatherDims.WF S100000x32 S1000000x3x1 S1000000x3x32 [2] [0] [] [0] [] 2 ![1, 32]
  dot_S1000000x96_S96x32_S1000000x32_1_0_0_1_n_n_wf : DotDims.WF S1000000x96 S96x32 S1000000x32 [1] [0] [0] [1] [] []
  dot_S1000000x96_S96x8_S1000000x8_1_0_0_1_n_n_wf : DotDims.WF S1000000x96 S96x8 S1000000x8 [1] [0] [0] [1] [] []
  dot_S1000000x8_S8x1_S1000000x1_1_0_0_1_n_n_wf : DotDims.WF S1000000x8 S8x1 S1000000x1 [1] [0] [0] [1] [] []

variable [Facts₀]

def gather_S100000x18_S1000000x1_S1000000x18_1_0_n_n_0_1_118 : GatherDims S100000x18 S1000000x1 S1000000x18 where
  offsetDims := [1]
  collapsedSliceDims := [0]
  operandBatchingDims := []
  startIndicesBatchingDims := []
  startIndexMap := [0]
  indexVectorDim := 1
  sliceSizes := ![1, 18]
  wf := gather_S100000x18_S1000000x1_S1000000x18_1_0_n_n_0_1_118_wf
def dot_S1000000x18_S18x30_S1000000x30_1_0_0_1_n_n : DotDims S1000000x18 S18x30 S1000000x30 where
  lhsContracting := [1]
  rhsContracting := [0]
  lhsNonContracting := [0]
  rhsNonContracting := [1]
  lhsBatch := []
  rhsBatch := []
  wf := dot_S1000000x18_S18x30_S1000000x30_1_0_0_1_n_n_wf
def dot_S1000000x30_S30x30_S1000000x30_1_0_0_1_n_n : DotDims S1000000x30 S30x30 S1000000x30 where
  lhsContracting := [1]
  rhsContracting := [0]
  lhsNonContracting := [0]
  rhsNonContracting := [1]
  lhsBatch := []
  rhsBatch := []
  wf := dot_S1000000x30_S30x30_S1000000x30_1_0_0_1_n_n_wf
def dot_S1000000x30_S30x5_S1000000x5_1_0_0_1_n_n : DotDims S1000000x30 S30x5 S1000000x5 where
  lhsContracting := [1]
  rhsContracting := [0]
  lhsNonContracting := [0]
  rhsNonContracting := [1]
  lhsBatch := []
  rhsBatch := []
  wf := dot_S1000000x30_S30x5_S1000000x5_1_0_0_1_n_n_wf
def gather_S100000x27_S1000000x1_S1000000x27_1_0_n_n_0_1_127 : GatherDims S100000x27 S1000000x1 S1000000x27 where
  offsetDims := [1]
  collapsedSliceDims := [0]
  operandBatchingDims := []
  startIndicesBatchingDims := []
  startIndexMap := [0]
  indexVectorDim := 1
  sliceSizes := ![1, 27]
  wf := gather_S100000x27_S1000000x1_S1000000x27_1_0_n_n_0_1_127_wf
def gather_S100000x3_S1000000x1_S1000000x3_1_0_n_n_0_1_13 : GatherDims S100000x3 S1000000x1 S1000000x3 where
  offsetDims := [1]
  collapsedSliceDims := [0]
  operandBatchingDims := []
  startIndicesBatchingDims := []
  startIndexMap := [0]
  indexVectorDim := 1
  sliceSizes := ![1, 3]
  wf := gather_S100000x3_S1000000x1_S1000000x3_1_0_n_n_0_1_13_wf
def gather_S100000x32_S1000000x3x1_S1000000x3x32_2_0_n_n_0_2_132 : GatherDims S100000x32 S1000000x3x1 S1000000x3x32 where
  offsetDims := [2]
  collapsedSliceDims := [0]
  operandBatchingDims := []
  startIndicesBatchingDims := []
  startIndexMap := [0]
  indexVectorDim := 2
  sliceSizes := ![1, 32]
  wf := gather_S100000x32_S1000000x3x1_S1000000x3x32_2_0_n_n_0_2_132_wf
def dot_S1000000x96_S96x32_S1000000x32_1_0_0_1_n_n : DotDims S1000000x96 S96x32 S1000000x32 where
  lhsContracting := [1]
  rhsContracting := [0]
  lhsNonContracting := [0]
  rhsNonContracting := [1]
  lhsBatch := []
  rhsBatch := []
  wf := dot_S1000000x96_S96x32_S1000000x32_1_0_0_1_n_n_wf
def dot_S1000000x96_S96x8_S1000000x8_1_0_0_1_n_n : DotDims S1000000x96 S96x8 S1000000x8 where
  lhsContracting := [1]
  rhsContracting := [0]
  lhsNonContracting := [0]
  rhsNonContracting := [1]
  lhsBatch := []
  rhsBatch := []
  wf := dot_S1000000x96_S96x8_S1000000x8_1_0_0_1_n_n_wf
def dot_S1000000x8_S8x1_S1000000x1_1_0_0_1_n_n : DotDims S1000000x8 S8x1 S1000000x1 where
  lhsContracting := [1]
  rhsContracting := [0]
  lhsNonContracting := [0]
  rhsNonContracting := [1]
  lhsBatch := []
  rhsBatch := []
  wf := dot_S1000000x8_S8x1_S1000000x1_1_0_0_1_n_n_wf

class Facts : Prop extends Facts₀ where

variable [Facts]
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.LibDotColsHost.lean ====
/-
  The host's plain matrix product read at one entry.

  For `x : M × K` and `y : K × N` the host's `dot_general` with dimension numbers "contract axis 1 of the left with axis 0 of
  the right, keep axis 0 of the left and axis 1 of the right" has no accumulator: over the extended reals its entry `(p, q)` is
  `∑ k, x[p, k] · y[k, q]`. The operand indices are those of the plain product (the companion module identifies them with the
  coordinate pairs `(p, k)` and `(k, q)`); only the operation differs.
-/
import proofs.«102774_j77687368450112_2_alg».proof.Proof.LibDotCols

noncomputable section

open scoped BigOperators

namespace Cert.Lib.DotColsHost

open Idealize.ShloMosaic Idealize.ShloMosaic.ValueIdx Cert.Lib.DotCols

variable {M K N : Nat}

/-- THE HOST'S PLAIN PRODUCT AT AN ENTRY. Over the extended reals, a `dot_general` with these dimension numbers (any record `D`
    that spells them: `hD`), whatever its precision and schedule, holds at `(p, q)` the sum `∑ k, x[p, k] · y[k, q]`. -/
theorem dotGeneral_cols_apply {φ₁ φ₂ : FTy} (D : DotDims ⟨2, ![M, K]⟩ ⟨2, ![K, N]⟩ ⟨2, ![M, N]⟩) (hD : D = DotDims.plain M K N)
    (prec : Option ContractPrecision) (sched : HostSchedule) (x : FVec Ideal ⟨2, ![M, K]⟩ φ₁) (y : FVec Ideal ⟨2, ![K, N]⟩ φ₂)
    (p : Fin M) (q : Fin N) :
    FloatOps.dotGeneral D prec sched x y (ix2 p q) = ∑ k : Fin K, x (ix2 p k) * y (ix2 k q) := by
  subst hD
  rw [Ideal.dotGeneral_apply, ← Equiv.sum_comp (contrEquiv1 (DotDims.plain M K N) K rfl rfl).symm]
  refine Finset.sum_congr rfl fun k _ => ?_
  rw [lhsIdx_cols, rhsIdx_cols]

end Cert.Lib.DotColsHost

end
-- ==== Proof.LibDenseRows.lean ====
/-
  An affine layer on rows, read at one entry, in a kernel's spelling and in a host program's.

  `dense W b x` is the affine layer `j ↦ Σ_k x_k · W[j, k] + b_j` of one row `x`, the weight stored output-major (`W : [N, K]`, as
  a torch `Linear` or a jnp `x @ W.T + b`). A program applies it to an `n`-row array by transposing the weight, multiplying —
  a kernel's matrix product accumulated into zero after rounding the weight to a narrower float format, or the host's
  `dot_general`, both with the plain dimension numbers (contract the left operand's columns with the right operand's rows) —
  and adding the bias laid along every row: cast to `[1, N]` and broadcast in a kernel, two `broadcast_in_dim`s on the host.
  Over the extended reals the rounding is the identity and both products are the sum over the contracted index, so at entry
  `(p, q)` either spelling is `dense W b` of row `p` of the operand, at `q` — for any sizes `n`, `K`, `N`. Because the statement
  is about one row, it serves a block of rows as it serves the whole array.
-/
import Idealize.ShloMosaic.Lib.Pipeline.Value
import Idealize.ShloMosaic.Lib.ValueIdx
import Idealize.ShloMosaic.Lib.ValueLayout
import Idealize.ShloMosaic.PureOps.Ideal.Laws
import proofs.«102774_j77687368450112_2_alg».proof.Proof.LibDotCols
import proofs.«102774_j77687368450112_2_alg».proof.Proof.LibDotColsHost

noncomputable section

open scoped BigOperators

namespace Cert.Lib.DenseRows

open Idealize.ShloMosaic Idealize.ShloMosaic.ValueIdx

variable {n K N : ℕ}

/-- An affine layer on one row: `y_j = Σ_k x_k · W[j, k] + b_j`. -/
def dense (W : (⟨2, ![N, K]⟩ : Shape).Idx → EReal) (b : (⟨1, ![N]⟩ : Shape).Idx → EReal)
    (x : Fin K → EReal) : Fin N → EReal :=
  fun j => (∑ k : Fin K, x k * W (ix2 j k)) + b (ix1 j)

/-- The bias `[N]` cast to `[1, N]` and laid along `n` rows reads `b[q]` at `(p, q)`. -/
theorem bias_rows_cast (b : (⟨1, ![N]⟩ : Shape).Idx → EReal) (hs : (⟨1, ![N]⟩ : Shape).ShapeCasts ⟨2, ![1, N]⟩)
    (hb : (⟨2, ![1, N]⟩ : Shape).Broadcasts ⟨2, ![n, N]⟩) (p : Fin n) (q : Fin N) :
    broadcastTo ⟨2, ![n, N]⟩ (shapeCast ⟨2, ![1, N]⟩ b hs) hb (ix2 p q) = b (ix1 q) :=
  (broadcastTo_1b_ab_apply _ hb p q).trans (shapeCast_a_1a_apply b hs 0 q)

/-- The same bias laid out by two `broadcast_in_dim`s (`[N]` to `[1, N]` to `[n, N]`) reads `b[q]` at `(p, q)`. -/
theorem bias_rows_bcast (b : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![n, N]⟩ ![0, 1]) (p : Fin n) (q : Fin N) :
    broadcastInDim ⟨2, ![n, N]⟩ ![0, 1] h2 (broadcastInDim ⟨2, ![1, N]⟩ ![1] h1 b) (ix2 p q) = b (ix1 q) := by
  refine (broadcastInDim_apply ![0, 1] h2 _ (ix2 p q) (ix2 (0 : Fin 1) q) fun a => ?_).trans
    (broadcastInDim_apply ![1] h1 b (ix2 (0 : Fin 1) q) (ix1 q) fun a => ?_)
  · match a with
    | ⟨0, _⟩ => rfl
    | ⟨1, _⟩ =>
      show q.val = if N = 1 then 0 else q.val
      split
      · have := q.isLt; omega
      · rfl
  · match a with
    | ⟨0, _⟩ =>
      show q.val = if N = 1 then 0 else q.val
      split
      · have := q.isLt; omega
      · rfl

/-- A layer as a kernel body spells it — the weight rounded and transposed, the product accumulated into zero, the bias cast to
    one row, laid along the rows and added — is, at `(p, q)`, the affine layer of row `p`. -/
theorem kernel_dense {φ₁ : FTy} (D : DotDims ⟨2, ![n, K]⟩ ⟨2, ![K, N]⟩ ⟨2, ![n, N]⟩) (hD : D = DotDims.plain n K N)
    (x : FVec Ideal ⟨2, ![n, K]⟩ φ₁) (W : FVec Ideal ⟨2, ![N, K]⟩ .f32) (b : FVec Ideal ⟨1, ![N]⟩ .f32)
    (hlt : FTy.bf16.bits < FTy.f32.bits)
    (ht : (⟨2, ![N, K]⟩ : Shape).Transposes [1, 0] ⟨2, ![K, N]⟩)
    (hs : (⟨1, ![N]⟩ : Shape).ShapeCasts ⟨2, ![1, N]⟩)
    (hb : (⟨2, ![1, N]⟩ : Shape).Broadcasts ⟨2, ![n, N]⟩)
    (p : Fin n) (q : Fin N) :
    addf (matmul D none x (transpose ⟨2, ![K, N]⟩ [1, 0] (truncf .bf16 W hlt) ht) (constant ⟨2, ![n, N]⟩ .f32 0x00000000#32))
      (broadcastTo ⟨2, ![n, N]⟩ (shapeCast ⟨2, ![1, N]⟩ b hs) hb) (ix2 p q)
    = dense W b (fun k => x (ix2 p k)) q := by
  show FloatOps.matmul D none x (transpose ⟨2, ![K, N]⟩ [1, 0] (truncf .bf16 W hlt) ht) (constant ⟨2, ![n, N]⟩ .f32 0x00000000#32) (ix2 p q)
      + broadcastTo ⟨2, ![n, N]⟩ (shapeCast ⟨2, ![1, N]⟩ b hs) hb (ix2 p q)
    = (∑ k : Fin K, x (ix2 p k) * W (ix2 q k)) + b (ix1 q)
  rw [bias_rows_cast b hs hb p q, Cert.Lib.DotCols.matmul_cols_apply D hD none x _ p q]
  refine congrArg (· + b (ix1 q)) (Finset.sum_congr rfl fun k _ => ?_)
  exact congrArg (x (ix2 p k) * ·) (transpose_ix2_apply (truncf .bf16 W hlt) ht k q)

/-- The same layer as a host program spells it — the weight transposed, `dot_general`, the bias broadcast in two steps and
    added — is, at `(p, q)`, the affine layer of row `p`. -/
theorem host_dense {φ₁ : FTy} (D : DotDims ⟨2, ![n, K]⟩ ⟨2, ![K, N]⟩ ⟨2, ![n, N]⟩) (hD : D = DotDims.plain n K N)
    (x : FVec Ideal ⟨2, ![n, K]⟩ φ₁) (W : FVec Ideal ⟨2, ![N, K]⟩ .f32) (b : FVec Ideal ⟨1, ![N]⟩ .f32)
    (ht : (⟨2, ![N, K]⟩ : Shape).Transposes [1, 0] ⟨2, ![K, N]⟩)
    (h1 : (⟨1, ![N]⟩ : Shape).BroadcastsInDim ⟨2, ![1, N]⟩ ![1])
    (h2 : (⟨2, ![1, N]⟩ : Shape).BroadcastsInDim ⟨2, ![n, N]⟩ ![0, 1])
    (p : Fin n) (q : Fin N) :
    addf (Host.dotGeneral D none x (transpose ⟨2, ![K, N]⟩ [1, 0] W ht))
      (broadcastInDim ⟨2, ![n, N]⟩ ![0, 1] h2 (broadcastInDim ⟨2, ![1, N]⟩ ![1] h1 b)) (ix2 p q)
    = dense W b (fun k => x (ix2 p k)) q := by
  show FloatOps.dotGeneral D none .single x (transpose ⟨2, ![K, N]⟩ [1, 0] W ht) (ix2 p q)
      + broadcastInDim ⟨2, ![n, N]⟩ ![0, 1] h2 (broadcastInDim ⟨2, ![1, N]⟩ ![1] h1 b) (ix2 p q)
    = (∑ k : Fin K, x (ix2 p k) * W (ix2 q k)) + b (ix1 q)
  rw [bias_rows_bcast b h1 h2 p q, Cert.Lib.DotColsHost.dotGeneral_cols_apply D hD none .single x _ p q]
  refine congrArg (· + b (ix1 q)) (Finset.sum_congr rfl fun k _ => ?_)
  exact congrArg (x (ix2 p k) * ·) (transpose_ix2_apply W ht k q)

end Cert.Lib.DenseRows

end
-- ==== Proof.Spec.lean ====
/-
  The function both programs compute, one query at a time.

  A query's answer depends on three gathered rows only — the 96 concatenated coordinates of its group's three member
  embeddings, the 27 identity coordinates of its item and the item's 18 genre coordinates — and on the weights. With
  `dense W b x` the affine layer `j ↦ Σ_k x_k · W[j, k] + b_j` (the weight stored output-major), the answer is

      item  = (identity coordinates) ++ dense W3 b3 (dense W2 b2 (dense W1 b1 genres))          -- 27 + 5 = 32 coordinates
      group = dense Wm bm members                                                                -- 32 coordinates
      score = logistic (dense Wp2 bp2 (max (dense Wp1 bp1 ((group · item) ++ group ++ item)) 0))

  over the extended reals, every sum taken in the order of its index. Nothing here mentions a program: the two programs'
  value proofs each end at `score` of the rows they read.
-/
import Idealize.ShloMosaic.PureOps.Ideal
import Idealize.ShloMosaic.Lib.ValueIdx
import proofs.«102774_j77687368450112_2_alg».proof.Proof.LibDenseRows

noncomputable section

open scoped BigOperators

namespace Cert.Spec

open Idealize.ShloMosaic Idealize.ShloMosaic.ValueIdx

/- The affine layer on one row, `dense W b x = j ↦ Σ_k x_k · W[j, k] + b_j`, is the layer library's. -/
export Cert.Lib.DenseRows (dense)

/-- The item's row: its 27 identity coordinates followed by the 5 coordinates computed from its genres. -/
def joinItem (idc : Fin 27 → EReal) (g : Fin 5 → EReal) : Fin 32 → EReal :=
  fun j => if h : j.val < 27 then idc ⟨j.val, h⟩ else g ⟨j.val - 27, by have := j.isLt; omega⟩

/-- The interaction row: the coordinatewise product of the group's and the item's rows, then the group's row, then the
    item's. -/
def interact (grp itm : Fin 32 → EReal) : Fin 96 → EReal :=
  fun j => if h : j.val < 32 then grp ⟨j.val, h⟩ * itm ⟨j.val, h⟩
    else if h' : j.val < 64 then grp ⟨j.val - 32, by omega⟩ else itm ⟨j.val - 64, by have := j.isLt; omega⟩

/-- One query's score, from its three gathered rows and the weights. The rectifier's zero is kept as the word both
    programs spell it with. -/
def score (Wm : (⟨2, ![32, 96]⟩ : Shape).Idx → EReal) (bm : (⟨1, ![32]⟩ : Shape).Idx → EReal)
    (W1 : (⟨2, ![30, 18]⟩ : Shape).Idx → EReal) (b1 : (⟨1, ![30]⟩ : Shape).Idx → EReal)
    (W2 : (⟨2, ![30, 30]⟩ : Shape).Idx → EReal) (b2 : (⟨1, ![30]⟩ : Shape).Idx → EReal)
    (W3 : (⟨2, ![5, 30]⟩ : Shape).Idx → EReal) (b3 : (⟨1, ![5]⟩ : Shape).Idx → EReal)
    (Wp1 : (⟨2, ![8, 96]⟩ : Shape).Idx → EReal) (bp1 : (⟨1, ![8]⟩ : Shape).Idx → EReal)
    (Wp2 : (⟨2, ![1, 8]⟩ : Shape).Idx → EReal) (bp2 : (⟨1, ![1]⟩ : Shape).Idx → EReal)
    (mem : Fin 96 → EReal) (idc : Fin 27 → EReal) (gen : Fin 18 → EReal) : EReal :=
  Ideal.logistic (dense Wp2 bp2
    (fun j => max (dense Wp1 bp1 (interact (dense Wm bm mem)
      (joinItem idc (dense W3 b3 (dense W2 b2 (dense W1 b1 gen))))) j) (Ideal.ofBits .f32 0x00000000#32))
    (0 : Fin 1))

/-- The whole result: entry `(r, 0)` is the score of query `r`, read from row `r` of each gathered array. -/
def result (mem : (⟨2, ![1000000, 96]⟩ : Shape).Idx → EReal) (idc : (⟨2, ![1000000, 27]⟩ : Shape).Idx → EReal)
    (gen : (⟨2, ![1000000, 18]⟩ : Shape).Idx → EReal)
    (Wm : (⟨2, ![32, 96]⟩ : Shape).Idx → EReal) (bm : (⟨1, ![32]⟩ : Shape).Idx → EReal)
    (W1 : (⟨2, ![30, 18]⟩ : Shape).Idx → EReal) (b1 : (⟨1, ![30]⟩ : Shape).Idx → EReal)
    (W2 : (⟨2, ![30, 30]⟩ : Shape).Idx → EReal) (b2 : (⟨1, ![30]⟩ : Shape).Idx → EReal)
    (W3 : (⟨2, ![5, 30]⟩ : Shape).Idx → EReal) (b3 : (⟨1, ![5]⟩ : Shape).Idx → EReal)
    (Wp1 : (⟨2, ![8, 96]⟩ : Shape).Idx → EReal) (bp1 : (⟨1, ![8]⟩ : Shape).Idx → EReal)
    (Wp2 : (⟨2, ![1, 8]⟩ : Shape).Idx → EReal) (bp2 : (⟨1, ![1]⟩ : Shape).Idx → EReal) :
    (⟨2, ![1000000, 1]⟩ : Shape).Idx → EReal :=
  fun i => score Wm bm W1 b1 W2 b2 W3 b3 Wp1 bp1 Wp2 bp2
    (fun k => mem (ix2 ⟨(i 0).val, (i 0).isLt⟩ k)) (fun k => idc (ix2 ⟨(i 0).val, (i 0).isLt⟩ k))
    (fun k => gen (ix2 ⟨(i 0).val, (i 0).isLt⟩ k))

end Cert.Spec

end
-- ==== Proof.Layers.lean ====
/-
  The network's two concatenations read at one entry, for any number of rows.

  Both programs join rows by concatenating arrays along the column axis: the item's 27 identity columns with its 5 computed
  columns, and the product of the group's and the item's arrays with those two arrays themselves. A concatenation read at
  `(p, j)` picks the piece column `j` falls in and reads it at row `p`, so each is the specification's joined row of row `p` of the
  pieces — for a block of rows as for the whole array. (The affine layers, read the same way, are the layer library's.)
-/
import Idealize.ShloMosaic.Lib.Pipeline.Value
import Idealize.ShloMosaic.Lib.ValueIdx
import Idealize.ShloMosaic.Lib.ValueLayout
import Idealize.ShloMosaic.PureOps.Ideal.Laws
import proofs.«102774_j77687368450112_2_alg».proof.Proof.Spec
import proofs.«102774_j77687368450112_2_alg».proof.Proof.LibDenseRows

noncomputable section

open scoped BigOperators

namespace Cert.Layers

open Idealize.ShloMosaic Idealize.ShloMosaic.ValueIdx Cert.Spec

variable {n K N : ℕ}

export Cert.Lib.DenseRows (kernel_dense host_dense)

/-- The item's array — identity columns, then the five computed columns — read at `(p, j)` is the joined row of row `p`. -/
theorem concat_item (x : (⟨2, ![n, 27]⟩ : Shape).Idx → EReal) (y : (⟨2, ![n, 5]⟩ : Shape).Idx → EReal)
    (h : Shape.Concatenates [⟨2, ![n, 27]⟩, ⟨2, ![n, 5]⟩] ⟨2, ![n, 32]⟩ 1) (p : Fin n) (j : Fin 32) :
    concatenate ⟨2, ![n, 32]⟩ 1 [⟨⟨2, ![n, 27]⟩, x⟩, ⟨⟨2, ![n, 5]⟩, y⟩] h (ix2 p j)
      = joinItem (fun k => x (ix2 p k)) (fun k => y (ix2 p k)) j := by
  unfold joinItem
  by_cases hj : j.val < 27
  · rw [dif_pos hj]
    exact concatenate_pair_apply_left 1 x y h (ix2 p j) rfl (ix2 p ⟨j.val, hj⟩)
      (fun b => by match b with | ⟨0, _⟩ => rfl | ⟨1, _⟩ => rfl)
  · rw [dif_neg hj]
    exact concatenate_pair_apply_right 1 x y h (ix2 p j) rfl rfl (ix2 p ⟨j.val - 27, by have := j.isLt; omega⟩)
      (fun b hb => by
        match b, hb with
        | ⟨0, _⟩, _ => rfl
        | ⟨1, _⟩, hb => exact absurd rfl hb)
      (by show (j.val - 27) + 27 = j.val; omega)

/-- The interaction array — the product of the group's and the item's arrays, then the group's, then the item's — read at
    `(p, j)` is the interaction row of row `p`. -/
theorem concat_interact (a b : FVec Ideal ⟨2, ![n, 32]⟩ .f32)
    (h : Shape.Concatenates [⟨2, ![n, 32]⟩, ⟨2, ![n, 32]⟩, ⟨2, ![n, 32]⟩] ⟨2, ![n, 96]⟩ 1) (p : Fin n) (j : Fin 96) :
    concatenate ⟨2, ![n, 96]⟩ 1 [⟨⟨2, ![n, 32]⟩, mulf a b⟩, ⟨⟨2, ![n, 32]⟩, a⟩, ⟨⟨2, ![n, 32]⟩, b⟩] h (ix2 p j)
      = interact (fun k => a (ix2 p k)) (fun k => b (ix2 p k)) j := by
  unfold interact
  have hjl := j.isLt
  by_cases h1 : j.val < 32
  · rw [dif_pos h1]
    exact concatenate_apply_piece 1 ([⟨⟨2, ![n, 32]⟩, mulf a b⟩, ⟨⟨2, ![n, 32]⟩, a⟩, ⟨⟨2, ![n, 32]⟩, b⟩] : List ((s : Shape) × (s.Idx → EReal))) h (ix2 p j) 0 (by show 0 < 3; omega) ⟨2, ![n, 32]⟩ (mulf a b) rfl rfl 0 rfl
      (ix2 p ⟨j.val, h1⟩)
      (fun c hc => by
        match c, hc with
        | ⟨0, _⟩, _ => rfl
        | ⟨1, _⟩, hc => exact absurd rfl hc)
      (by show 0 + j.val = j.val; omega)
  · rw [dif_neg h1]
    by_cases h2 : j.val < 64
    · rw [dif_pos h2]
      exact concatenate_apply_piece 1 ([⟨⟨2, ![n, 32]⟩, mulf a b⟩, ⟨⟨2, ![n, 32]⟩, a⟩, ⟨⟨2, ![n, 32]⟩, b⟩] : List ((s : Shape) × (s.Idx → EReal))) h (ix2 p j) 1 (by show 1 < 3; omega) ⟨2, ![n, 32]⟩ a rfl rfl 32 rfl
        (ix2 p ⟨j.val - 32, by omega⟩)
        (fun c hc => by
          match c, hc with
          | ⟨0, _⟩, _ => rfl
          | ⟨1, _⟩, hc => exact absurd rfl hc)
        (by show 32 + (j.val - 32) = j.val; omega)
    · rw [dif_neg h2]
      exact concatenate_apply_piece 1 ([⟨⟨2, ![n, 32]⟩, mulf a b⟩, ⟨⟨2, ![n, 32]⟩, a⟩, ⟨⟨2, ![n, 32]⟩, b⟩] : List ((s : Shape) × (s.Idx → EReal))) h (ix2 p j) 2 (by show 2 < 3; omega) ⟨2, ![n, 32]⟩ b rfl rfl 64 rfl
        (ix2 p ⟨j.val - 64, by omega⟩)
        (fun c hc => by
          match c, hc with
          | ⟨0, _⟩, _ => rfl
          | ⟨1, _⟩, hc => exact absurd rfl hc)
        (by show 64 + (j.val - 64) = j.val; omega)

end Cert.Layers

end
-- ==== Proof.KernelLayers.lean ====
/-
  The kernel body's six affine layers, each read at one entry.

  Every layer of the body is the same three steps on literal shapes — the weight rounded and transposed, the product of a
  4000-row block with it accumulated into zero, the bias laid along the rows and added — so each is an instance of the one layer
  lemma: at `(p, q)` it is the affine layer of row `p` of the block.
-/
import proofs.«102774_j77687368450112_2_alg».proof.Proof.Gen.KernelIdeal.Skeleton
import proofs.«102774_j77687368450112_2_alg».proof.Proof.Layers

noncomputable section

open scoped BigOperators

namespace Cert.KernelIdeal.Hand

open Cert.KernelIdeal Cert.KernelIdeal.Gen Idealize.ShloMosaic Idealize.ShloMosaic.ValueIdx Cert.Spec Cert.Layers

/-- The logistic function is applied entry by entry. -/
theorem logistic_apply {s : Shape} {φ : FTy} (a : FVec Ideal s φ) (i : s.Idx) : logistic a i = Ideal.logistic (a i) := rfl

/-- The body's `gen1` layer at `(p, q)`: the affine layer of row `p`. -/
theorem layer_gen1 (x : FVec Ideal S4000x18 .bf16) (W : FVec Ideal S30x18 .f32) (b : FVec Ideal S30 .f32) (p : Fin 4000) (q : Fin 30) :
    addf (matmul dot_S4000x18_S18x30_S4000x30_1_0_0_1_n_n none x (transpose S18x30 [1, 0] (truncf .bf16 W bitsLt_bf16_f32) transposes_S30x18_p1_0_S18x30) (constant S4000x30 .f32 0x00000000#32))
      (broadcastTo S4000x30 (shapeCast S1x30 b shapeCasts_S30_S1x30) broadcasts_S1x30_S4000x30) (ix2 p q)
    = dense W b (fun k => x (ix2 p k)) q :=
  kernel_dense _ rfl x W b _ _ _ _ p q

/-- The body's `gen2` layer at `(p, q)`: the affine layer of row `p`. -/
theorem layer_gen2 (x : FVec Ideal S4000x30 .bf16) (W : FVec Ideal S30x30 .f32) (b : FVec Ideal S30 .f32) (p : Fin 4000) (q : Fin 30) :
    addf (matmul dot_S4000x30_S30x30_S4000x30_1_0_0_1_n_n none x (transpose S30x30 [1, 0] (truncf .bf16 W bitsLt_bf16_f32) transposes_S30x30_p1_0_S30x30) (constant S4000x30 .f32 0x00000000#32))
      (broadcastTo S4000x30 (shapeCast S1x30 b shapeCasts_S30_S1x30) broadcasts_S1x30_S4000x30) (ix2 p q)
    = dense W b (fun k => x (ix2 p k)) q :=
  kernel_dense _ rfl x W b _ _ _ _ p q

/-- The body's `gen3` layer at `(p, q)`: the affine layer of row `p`. -/
theorem layer_gen3 (x : FVec Ideal S4000x30 .bf16) (W : FVec Ideal S5x30 .f32) (b : FVec Ideal S5 .f32) (p : Fin 4000) (q : Fin 5) :
    addf (matmul dot_S4000x30_S30x5_S4000x5_1_0_0_1_n_n none x (transpose S30x5 [1, 0] (truncf .bf16 W bitsLt_bf16_f32) transposes_S5x30_p1_0_S30x5) (constant S4000x5 .f32 0x00000000#32))
      (broadcastTo S4000x5 (shapeCast S1x5 b shapeCasts_S5_S1x5) broadcasts_S1x5_S4000x5) (ix2 p q)
    = dense W b (fun k => x (ix2 p k)) q :=
  kernel_dense _ rfl x W b _ _ _ _ p q

/-- The body's `grp` layer at `(p, q)`: the affine layer of row `p`. -/
theorem layer_grp (x : FVec Ideal S4000x96 .bf16) (W : FVec Ideal S32x96 .f32) (b : FVec Ideal S32 .f32) (p : Fin 4000) (q : Fin 32) :
    addf (matmul dot_S4000x96_S96x32_S4000x32_1_0_0_1_n_n none x (transpose S96x32 [1, 0] (truncf .bf16 W bitsLt_bf16_f32) transposes_S32x96_p1_0_S96x32) (constant S4000x32 .f32 0x00000000#32))
      (broadcastTo S4000x32 (shapeCast S1x32 b shapeCasts_S32_S1x32) broadcasts_S1x32_S4000x32) (ix2 p q)
    = dense W b (fun k => x (ix2 p k)) q :=
  kernel_dense _ rfl x W b _ _ _ _ p q

/-- The body's `hid` layer at `(p, q)`: the affine layer of row `p`. -/
theorem layer_hid (x : FVec Ideal S4000x96 .bf16) (W : FVec Ideal S8x96 .f32) (b : FVec Ideal S8 .f32) (p : Fin 4000) (q : Fin 8) :
    addf (matmul dot_S4000x96_S96x8_S4000x8_1_0_0_1_n_n none x (transpose S96x8 [1, 0] (truncf .bf16 W bitsLt_bf16_f32) transposes_S8x96_p1_0_S96x8) (constant S4000x8 .f32 0x00000000#32))
      (broadcastTo S4000x8 (shapeCast S1x8 b shapeCasts_S8_S1x8) broadcasts_S1x8_S4000x8) (ix2 p q)
    = dense W b (fun k => x (ix2 p k)) q :=
  kernel_dense _ rfl x W b _ _ _ _ p q

/-- The body's `out` layer at `(p, q)`: the affine layer of row `p`. -/
theorem layer_out (x : FVec Ideal S4000x8 .bf16) (W : FVec Ideal S1x8 .f32) (b : FVec Ideal S1 .f32) (p : Fin 4000) (q : Fin 1) :
    addf (matmul dot_S4000x8_S8x1_S4000x1_1_0_0_1_n_n none x (transpose S8x1 [1, 0] (truncf .bf16 W bitsLt_bf16_f32) transposes_S1x8_p1_0_S8x1) (constant S4000x1 .f32 0x00000000#32))
      (broadcastTo S4000x1 (shapeCast S1x1 b shapeCasts_S1_S1x1) broadcasts_S1x1_S4000x1) (ix2 p q)
    = dense W b (fun k => x (ix2 p k)) q :=
  kernel_dense _ rfl x W b _ _ _ _ p q

end Cert.KernelIdeal.Hand

end
-- ==== Proof.KernelPayload.lean ====
/-
  The kernel body's stored value, read at one entry.

  One grid point's body loads a block of 4000 queries' gathered rows and the whole weights, and stores a 4000 × 1 block. Its
  arithmetic is six affine layers, two concatenations along the columns, a rectifier and the logistic function, each of which, read
  at row `p`, depends on row `p` of its operands only; rounding to the narrow float format is the identity over the extended reals.
  So entry `(p, 0)` of the stored block is the specification's `score` of row `p` of the three loaded row blocks.
-/
import proofs.«102774_j77687368450112_2_alg».proof.Proof.KernelLayers

noncomputable section

open scoped BigOperators

namespace Cert.KernelIdeal.Hand

open Cert.KernelIdeal Cert.KernelIdeal.Gen Idealize.ShloMosaic Idealize.ShloMosaic.ValueIdx Cert.Spec Cert.Layers

/-- The item's embedding block at `(p, j)`: the identity columns joined with the three genre layers of row `p`. -/
theorem item_apply (gen : FVec Ideal S4000x18 .bf16) (W1 : FVec Ideal S30x18 .f32) (b1 : FVec Ideal S30 .f32)
    (W2 : FVec Ideal S30x30 .f32) (b2 : FVec Ideal S30 .f32) (W3 : FVec Ideal S5x30 .f32) (b3 : FVec Ideal S5 .f32)
    (idc : FVec Ideal S4000x27 .f32) (p : Fin 4000) (j : Fin 32) :
    k0_pay2 (F := Ideal) gen W1 b1 W2 b2 W3 b3 idc (ix2 p j)
      = joinItem (fun k => idc (ix2 p k)) (dense W3 b3 (dense W2 b2 (dense W1 b1 (fun k => gen (ix2 p k))))) j := by
  unfold k0_pay2
  simp only [concat_item, shapeCast_self]
  refine congrArg (fun g => joinItem (fun k => idc (ix2 p k)) g j) (funext fun k => ?_)
  rw [layer_gen3]
  refine congrArg (fun r => dense W3 b3 r k) (funext fun k => ?_)
  rw [truncf_apply, layer_gen2]
  refine congrArg (fun r => dense W2 b2 r k) (funext fun k => ?_)
  rw [truncf_apply, layer_gen1]

/-- The stored block at `(p, 0)` is the score of row `p` of the loaded row blocks. -/
theorem payload_apply (mem : FVec Ideal S4000x96 .bf16) (idc : FVec Ideal S4000x27 .f32) (gen : FVec Ideal S4000x18 .bf16)
    (Wm : FVec Ideal S32x96 .f32) (bm : FVec Ideal S32 .f32) (W1 : FVec Ideal S30x18 .f32) (b1 : FVec Ideal S30 .f32)
    (W2 : FVec Ideal S30x30 .f32) (b2 : FVec Ideal S30 .f32) (W3 : FVec Ideal S5x30 .f32) (b3 : FVec Ideal S5 .f32)
    (Wp1 : FVec Ideal S8x96 .f32) (bp1 : FVec Ideal S8 .f32) (Wp2 : FVec Ideal S1x8 .f32) (bp2 : FVec Ideal S1 .f32)
    (p : Fin 4000) :
    k0_pay1 (F := Ideal) (k0_pay2 (F := Ideal) gen W1 b1 W2 b2 W3 b3 idc) (k0_pay3 (F := Ideal) mem Wm) bm Wp1 bp1 Wp2 bp2 (ix2 p (0 : Fin 1))
      = score Wm bm W1 b1 W2 b2 W3 b3 Wp1 bp1 Wp2 bp2
          (fun k => mem (ix2 p k)) (fun k => idc (ix2 p k)) (fun k => gen (ix2 p k)) := by
  unfold k0_pay1 k0_pay3 score
  rw [logistic_apply, layer_out]
  refine congrArg (fun r => Ideal.logistic (dense Wp2 bp2 r (0 : Fin 1))) (funext fun k => ?_)
  rw [truncf_apply, maximumf_apply, layer_hid]
  refine congrArg (fun r => max (dense Wp1 bp1 r k) (Ideal.ofBits .f32 0x00000000#32)) (funext fun k' => ?_)
  rw [truncf_apply, concat_interact]
  refine congrArg₂ (fun a b => interact a b k') (funext fun k'' => ?_) (funext fun k'' => ?_)
  · rw [layer_grp, shapeCast_self]
  · exact item_apply gen W1 b1 W2 b2 W3 b3 idc p k''

end Cert.KernelIdeal.Hand

end
-- ==== Proof.KernelBlockReads.lean ====
/-
  A grid point's blocks as parts of the arrays.

  The grid has 250 points. At point `t` each of the three gathered arrays and the result is at row block `t` (rows `4000·t` to
  `4000·t + 3999`, all columns) and every weight and bias is its whole array, at every point — facts of the printed index maps,
  decided once over the grid. Read through its block, an array's entry is therefore the array's entry at block index × block
  size + the coordinate inside the block: the same entry for a whole-array block, row `4000·t + p` for a row block.
-/
import proofs.«102774_j77687368450112_2_alg».proof.Proof.Gen.KernelIdeal.Value
import proofs.«102774_j77687368450112_2_alg».proof.Proof.KernelPayload

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Value Idealize.ShloMosaic.ValueIdx Cert.Spec

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a; rfl

/-- The kernel's result: the specification's result of the arrays as the region finds them. -/
abbrev found (c : Dev nD) : S1000000x1.Idx → EReal :=
  result (V m c main_v16) (V m c main_v23) (V m c main_v30) (V m c main_arg6) (V m c main_arg7) (V m c main_arg8)
    (V m c main_arg9) (V m c main_arg10) (V m c main_arg11) (V m c main_arg12) (V m c main_arg13) (V m c main_arg14)
    (V m c main_arg15) (V m c main_arg16) (V m c main_arg17)

/-- The row windows (the three gathered arrays and the result) are at block `(t, 0)` at point `t`, decided over the grid. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_15.index t (0 : Fin 2) = t.val ∧ win0_15.index t (1 : Fin 2) = 0 :=
  (by decide +kernel : ∀ t : Fin grid0.N, _)

/-- Window 3 is the whole of its array at every point. -/
theorem idx_whole3 : ∀ t : Fin cfg0.N, win0_3.index t (0 : Fin 2) = 0 ∧ win0_3.index t (1 : Fin 2) = 0 :=
  (by decide +kernel : ∀ t : Fin grid0.N, _)

theorem block3 (c : Dev nD) (t : Fin cfg0.N) : (iblk m c 3 t : S32x96.Idx → EReal) = V m c main_arg6 := by
  obtain ⟨e0, e1⟩ := idx_whole3 t
  funext y
  show V m c main_arg6 (((cfg0.win 3).blk t).view.emb y) = V m c main_arg6 y
  refine congrArg (V m c main_arg6) (funext fun a => Fin.ext ?_)
  match a with
  | ⟨0, _⟩ => show win0_3.index t (0 : Fin 2) * 32 + 1 * (y 0).val = (y 0).val; rw [e0]; omega
  | ⟨1, _⟩ => show win0_3.index t (1 : Fin 2) * 96 + 1 * (y 1).val = (y 1).val; rw [e1]; omega

/-- Window 4 is the whole of its array at every point. -/
theorem idx_whole4 : ∀ t : Fin cfg0.N, win0_4.index t (0 : Fin 1) = 0 :=
  (by decide +kernel : ∀ t : Fin grid0.N, _)

theorem block4 (c : Dev nD) (t : Fin cfg0.N) : (iblk m c 4 t : S32.Idx → EReal) = V m c main_arg7 := by
  have e0 := idx_whole4 t
  funext y
  show V m c main_arg7 (((cfg0.win 4).blk t).view.emb y) = V m c main_arg7 y
  refine congrArg (V m c main_arg7) (funext fun a => Fin.ext ?_)
  match a with
  | ⟨0, _⟩ => show win0_4.index t (0 : Fin 1) * 32 + 1 * (y 0).val = (y 0).val; rw [e0]; omega

/-- Window 5 is the whole of its array at every point. -/
theorem idx_whole5 : ∀ t : Fin cfg0.N, win0_5.index t (0 : Fin 2) = 0 ∧ win0_5.index t (1 : Fin 2) = 0 :=
  (by decide +kernel : ∀ t : Fin grid0.N, _)

theorem block5 (c : Dev nD) (t : Fin cfg0.N) : (iblk m c 5 t : S30x18.Idx → EReal) = V m c main_arg8 := by
  obtain ⟨e0, e1⟩ := idx_whole5 t
  funext y
  show V m c main_arg8 (((cfg0.win 5).blk t).view.emb y) = V m c main_arg8 y
  refine congrArg (V m c main_arg8) (funext fun a => Fin.ext ?_)
  match a with
  | ⟨0, _⟩ => show win0_5.index t (0 : Fin 2) * 30 + 1 * (y 0).val = (y 0).val; rw [e0]; omega
  | ⟨1, _⟩ => show win0_5.index t (1 : Fin 2) * 18 + 1 * (y 1).val = (y 1).val; rw [e1]; omega

/-- Window 6 is the whole of its array at every point. -/
theorem idx_whole6 : ∀ t : Fin cfg0.N, win0_6.index t (0 : Fin 1) = 0 :=
  (by decide +kernel : ∀ t : Fin grid0.N, _)

theorem block6 (c : Dev nD) (t : Fin cfg0.N) : (iblk m c 6 t : S30.Idx → EReal) = V m c main_arg9 := by
  have e0 := idx_whole6 t
  funext y
  show V m c main_arg9 (((cfg0.win 6).blk t).view.emb y) = V m c main_arg9 y
  refine congrArg (V m c main_arg9) (funext fun a => Fin.ext ?_)
  match a with
  | ⟨0, _⟩ => show win0_6.index t (0 : Fin 1) * 30 + 1 * (y 0).val = (y 0).val; rw [e0]; omega

/-- Window 7 is the whole of its array at every point. -/
theorem idx_whole7 : ∀ t : Fin cfg0.N, win0_7.index t (0 : Fin 2) = 0 ∧ win0_7.index t (1 : Fin 2) = 0 :=
  (by decide +kernel : ∀ t : Fin grid0.N, _)

theorem block7 (c : Dev nD) (t : Fin cfg0.N) : (iblk m c 7 t : S30x30.Idx → EReal) = V m c main_arg10 := by
  obtain ⟨e0, e1⟩ := idx_whole7 t
  funext y
  show V m c main_arg10 (((cfg0.win 7).blk t).view.emb y) = V m c main_arg10 y
  refine congrArg (V m c main_arg10) (funext fun a => Fin.ext ?_)
  match a with
  | ⟨0, _⟩ => show win0_7.index t (0 : Fin 2) * 30 + 1 * (y 0).val = (y 0).val; rw [e0]; omega
  | ⟨1, _⟩ => show win0_7.index t (1 : Fin 2) * 30 + 1 * (y 1).val = (y 1).val; rw [e1]; omega

/-- Window 8 is the whole of its array at every point. -/
theorem idx_whole8 : ∀ t : Fin cfg0.N, win0_8.index t (0 : Fin 1) = 0 :=
  (by decide +kernel : ∀ t : Fin grid0.N, _)

theorem block8 (c : Dev nD) (t : Fin cfg0.N) : (iblk m c 8 t : S30.Idx → EReal) = V m c main_arg11 := by
  have e0 := idx_whole8 t
  funext y
  show V m c main_arg11 (((cfg0.win 8).blk t).view.emb y) = V m c main_arg11 y
  refine congrArg (V m c main_arg11) (funext fun a => Fin.ext ?_)
  match a with
  | ⟨0, _⟩ => show win0_8.index t (0 : Fin 1) * 30 + 1 * (y 0).val = (y 0).val; rw [e0]; omega

/-- Window 9 is the whole of its array at every point. -/
theorem idx_whole9 : ∀ t : Fin cfg0.N, win0_9.index t (0 : Fin 2) = 0 ∧ win0_9.index t (1 : Fin 2) = 0 :=
  (by decide +kernel : ∀ t : Fin grid0.N, _)

theorem block9 (c : Dev nD) (t : Fin cfg0.N) : (iblk m c 9 t : S5x30.Idx → EReal) = V m c main_arg12 := by
  obtain ⟨e0, e1⟩ := idx_whole9 t
  funext y
  show V m c main_arg12 (((cfg0.win 9).blk t).view.emb y) = V m c main_arg12 y
  refine congrArg (V m c main_arg12) (funext fun a => Fin.ext ?_)
  match a with
  | ⟨0, _⟩ => show win0_9.index t (0 : Fin 2) * 5 + 1 * (y 0).val = (y 0).val; rw [e0]; omega
  | ⟨1, _⟩ => show win0_9.index t (1 : Fin 2) * 30 + 1 * (y 1).val = (y 1).val; rw [e1]; omega

/-- Window 10 is the whole of its array at every point. -/
theorem idx_whole10 : ∀ t : Fin cfg0.N, win0_10.index t (0 : Fin 1) = 0 :=
  (by decide +kernel : ∀ t : Fin grid0.N, _)

theorem block10 (c : Dev nD) (t : Fin cfg0.N) : (iblk m c 10 t : S5.Idx → EReal) = V m c main_arg13 := by
  have e0 := idx_whole10 t
  funext y
  show V m c main_arg13 (((cfg0.win 10).blk t).view.emb y) = V m c main_arg13 y
  refine congrArg (V m c main_arg13) (funext fun a => Fin.ext ?_)
  match a with
  | ⟨0, _⟩ => show win0_10.index t (0 : Fin 1) * 5 + 1 * (y 0).val = (y 0).val; rw [e0]; omega

/-- Window 11 is the whole of its array at every point. -/
theorem idx_whole11 : ∀ t : Fin cfg0.N, win0_11.index t (0 : Fin 2) = 0 ∧ win0_11.index t (1 : Fin 2) = 0 :=
  (by decide +kernel : ∀ t : Fin grid0.N, _)

theorem block11 (c : Dev nD) (t : Fin cfg0.N) : (iblk m c 11 t : S8x96.Idx → EReal) = V m c main_arg14 := by
  obtain ⟨e0, e1⟩ := idx_whole11 t
  funext y
  show V m c main_arg14 (((cfg0.win 11).blk t).view.emb y) = V m c main_arg14 y
  refine congrArg (V m c main_arg14) (funext fun a => Fin.ext ?_)
  match a with
  | ⟨0, _⟩ => show win0_11.index t (0 : Fin 2) * 8 + 1 * (y 0).val = (y 0).val; rw [e0]; omega
  | ⟨1, _⟩ => show win0_11.index t (1 : Fin 2) * 96 + 1 * (y 1).val = (y 1).val; rw [e1]; omega

/-- Window 12 is the whole of its array at every point. -/
theorem idx_whole12 : ∀ t : Fin cfg0.N, win0_12.index t (0 : Fin 1) = 0 :=
  (by decide +kernel : ∀ t : Fin grid0.N, _)

theorem block12 (c : Dev nD) (t : Fin cfg0.N) : (iblk m c 12 t : S8.Idx → EReal) = V m c main_arg15 := by
  have e0 := idx_whole12 t
  funext y
  show V m c main_arg15 (((cfg0.win 12).blk t).view.emb y) = V m c main_arg15 y
  refine congrArg (V m c main_arg15) (funext fun a => Fin.ext ?_)
  match a with
  | ⟨0, _⟩ => show win0_12.index t (0 : Fin 1) * 8 + 1 * (y 0).val = (y 0).val; rw [e0]; omega

/-- Window 13 is the whole of its array at every point. -/
theorem idx_whole13 : ∀ t : Fin cfg0.N, win0_13.index t (0 : Fin 2) = 0 ∧ win0_13.index t (1 : Fin 2) = 0 :=
  (by decide +kernel : ∀ t : Fin grid0.N, _)

theorem block13 (c : Dev nD) (t : Fin cfg0.N) : (iblk m c 13 t : S1x8.Idx → EReal) = V m c main_arg16 := by
  obtain ⟨e0, e1⟩ := idx_whole13 t
  funext y
  show V m c main_arg16 (((cfg0.win 13).blk t).view.emb y) = V m c main_arg16 y
  refine congrArg (V m c main_arg16) (funext fun a => Fin.ext ?_)
  match a with
  | ⟨0, _⟩ => show win0_13.index t (0 : Fin 2) * 1 + 1 * (y 0).val = (y 0).val; rw [e0]; omega
  | ⟨1, _⟩ => show win0_13.index t (1 : Fin 2) * 8 + 1 * (y 1).val = (y 1).val; rw [e1]; omega

/-- Window 14 is the whole of its array at every point. -/
theorem idx_whole14 : ∀ t : Fin cfg0.N, win0_14.index t (0 : Fin 1) = 0 :=
  (by decide +kernel : ∀ t : Fin grid0.N, _)

theorem block14 (c : Dev nD) (t : Fin cfg0.N) : (iblk m c 14 t : S1.Idx → EReal) = V m c main_arg17 := by
  have e0 := idx_whole14 t
  funext y
  show V m c main_arg17 (((cfg0.win 14).blk t).view.emb y) = V m c main_arg17 y
  refine congrArg (V m c main_arg17) (funext fun a => Fin.ext ?_)
  match a with
  | ⟨0, _⟩ => show win0_14.index t (0 : Fin 1) * 1 + 1 * (y 0).val = (y 0).val; rw [e0]; omega

/-- Row `p` of window 0's block at point `t` is row `4000·t + p` of its array. -/
theorem rows0 (c : Dev nD) (t : Fin cfg0.N) (p : Fin 4000) (r : Fin 1000000) (hr : r.val = t.val * 4000 + p.val) (k : Fin 96) :
    (iblk m c 0 t : S4000x96.Idx → EReal) (ix2 p k) = (V m c main_v16 : S1000000x96.Idx → EReal) (ix2 r k) := by
  have e0 := (idx_rows t).1
  have e1 := (idx_rows t).2.1
  show V m c main_v16 (((cfg0.win 0).blk t).view.emb (ix2 p k)) = V m c main_v16 (ix2 r k)
  refine congrArg (V m c main_v16) (funext fun a => Fin.ext ?_)
  match a with
  | ⟨0, _⟩ => show win0_0.index t (0 : Fin 2) * 4000 + 1 * p.val = r.val; rw [e0, hr]; omega
  | ⟨1, _⟩ => show win0_0.index t (1 : Fin 2) * 96 + 1 * k.val = k.val; rw [e1]; omega

/-- Row `p` of window 1's block at point `t` is row `4000·t + p` of its array. -/
theorem rows1 (c : Dev nD) (t : Fin cfg0.N) (p : Fin 4000) (r : Fin 1000000) (hr : r.val = t.val * 4000 + p.val) (k : Fin 27) :
    (iblk m c 1 t : S4000x27.Idx → EReal) (ix2 p k) = (V m c main_v23 : S1000000x27.Idx → EReal) (ix2 r k) := by
  have e0 := (idx_rows t).2.2.1
  have e1 := (idx_rows t).2.2.2.1
  show V m c main_v23 (((cfg0.win 1).blk t).view.emb (ix2 p k)) = V m c main_v23 (ix2 r k)
  refine congrArg (V m c main_v23) (funext fun a => Fin.ext ?_)
  match a with
  | ⟨0, _⟩ => show win0_1.index t (0 : Fin 2) * 4000 + 1 * p.val = r.val; rw [e0, hr]; omega
  | ⟨1, _⟩ => show win0_1.index t (1 : Fin 2) * 27 + 1 * k.val = k.val; rw [e1]; omega

/-- Row `p` of window 2's block at point `t` is row `4000·t + p` of its array. -/
theorem rows2 (c : Dev nD) (t : Fin cfg0.N) (p : Fin 4000) (r : Fin 1000000) (hr : r.val = t.val * 4000 + p.val) (k : Fin 18) :
    (iblk m c 2 t : S4000x18.Idx → EReal) (ix2 p k) = (V m c main_v30 : S1000000x18.Idx → EReal) (ix2 r k) := by
  have e0 := (idx_rows t).2.2.2.2.1
  have e1 := (idx_rows t).2.2.2.2.2.1
  show V m c main_v30 (((cfg0.win 2).blk t).view.emb (ix2 p k)) = V m c main_v30 (ix2 r k)
  refine congrArg (V m c main_v30) (funext fun a => Fin.ext ?_)
  match a with
  | ⟨0, _⟩ => show win0_2.index t (0 : Fin 2) * 4000 + 1 * p.val = r.val; rw [e0, hr]; omega
  | ⟨1, _⟩ => show win0_2.index t (1 : Fin 2) * 18 + 1 * k.val = k.val; rw [e1]; omega

end Cert.KernelIdeal.Hand

end
-- ==== Proof.KernelBlocks.lean ====
/-
  From blocks to the whole result array.

  The grid has 250 points; point `t` reads rows `4000·t … 4000·t + 3999` of the three gathered arrays and the whole of every weight
  and bias, and writes back rows `4000·t … 4000·t + 3999` of the result. A block's entry `(p, k)` is therefore the array's entry
  `(4000·t + p, k)`, so by the body's value at an entry the block point `t` writes back is block `t` of ONE function of the arrays the
  region finds: the specification's result. The 250 row blocks tile the million rows — row `r` lies in block `r / 4000` —, so after
  the run the result array is that function.
-/
import proofs.«102774_j77687368450112_2_alg».proof.Proof.KernelBlockReads

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Value Idealize.ShloMosaic.ValueIdx Cert.Spec

variable (m : (ℓ : Loc nD τ sig) → Buf (Elt Ideal) ℓ) (ρ : Dev nD → PrngReg)

/-- The score depends on its weights and rows only: equal arguments, equal scores. -/
theorem score_congr {Wm Wm' : (⟨2, ![32, 96]⟩ : Shape).Idx → EReal} {bm bm' : (⟨1, ![32]⟩ : Shape).Idx → EReal} {W1 W1' : (⟨2, ![30, 18]⟩ : Shape).Idx → EReal} {b1 b1' : (⟨1, ![30]⟩ : Shape).Idx → EReal} {W2 W2' : (⟨2, ![30, 30]⟩ : Shape).Idx → EReal} {b2 b2' : (⟨1, ![30]⟩ : Shape).Idx → EReal} {W3 W3' : (⟨2, ![5, 30]⟩ : Shape).Idx → EReal} {b3 b3' : (⟨1, ![5]⟩ : Shape).Idx → EReal} {Wp1 Wp1' : (⟨2, ![8, 96]⟩ : Shape).Idx → EReal} {bp1 bp1' : (⟨1, ![8]⟩ : Shape).Idx → EReal} {Wp2 Wp2' : (⟨2, ![1, 8]⟩ : Shape).Idx → EReal} {bp2 bp2' : (⟨1, ![1]⟩ : Shape).Idx → EReal} {mem mem' : Fin 96 → EReal} {idc idc' : Fin 27 → EReal} {gen gen' : Fin 18 → EReal}
    (e0 : Wm = Wm') (e1 : bm = bm') (e2 : W1 = W1') (e3 : b1 = b1') (e4 : W2 = W2') (e5 : b2 = b2') (e6 : W3 = W3') (e7 : b3 = b3') (e8 : Wp1 = Wp1') (e9 : bp1 = bp1') (e10 : Wp2 = Wp2') (e11 : bp2 = bp2') (e12 : mem = mem') (e13 : idc = idc') (e14 : gen = gen') :
    score Wm bm W1 b1 W2 b2 W3 b3 Wp1 bp1 Wp2 bp2 mem idc gen = score Wm' bm' W1' b1' W2' b2' W3' b3' Wp1' bp1' Wp2' bp2' mem' idc' gen' := by
  subst e0 e1 e2 e3 e4 e5 e6 e7 e8 e9 e10 e11 e12 e13 e14
  rfl

set_option maxHeartbeats 2000000 in
set_option backward.isDefEq.respectTransparency.types false in
/-- WHAT POINT `t` WRITES BACK is block `t` of the specification's result of the arrays the region finds. -/
theorem flushed_eq (c : Dev nD) (t : Fin cfg0.N) :
    (dats m 0 c).flushed 15 t = ((cfg0.win 15).blk t).view.read (Elt Ideal) (found m c) := by
  show (cfg0.win 15).cut (grid0.coords t) ((dats m 0 c).after 15 t) = _
  rw [after0_15]
  unfold out0_15
  rw [View.canon_unit_zero zero2]
  simp only [View.ld_unit_zero (S := S4000x96) zero2, View.ld_unit_zero (S := S4000x27) zero2, View.ld_unit_zero (S := S4000x18) zero2,
    View.ld_unit_zero (S := S32x96) zero2, View.ld_unit_zero (S := S32) zero1, View.ld_unit_zero (S := S30x18) zero2,
    View.ld_unit_zero (S := S30) zero1, View.ld_unit_zero (S := S30x30) zero2, View.ld_unit_zero (S := S5x30) zero2,
    View.ld_unit_zero (S := S5) zero1, View.ld_unit_zero (S := S8x96) zero2, View.ld_unit_zero (S := S8) zero1,
    View.ld_unit_zero (S := S1x8) zero2, View.ld_unit_zero (S := S1) zero1]
  funext j
  obtain ⟨p, q, rfl⟩ : ∃ (p : Fin 4000) (q : Fin 1), j = ix2 p q := ⟨j 0, j 1, eq_ix2 j⟩
  obtain rfl : q = 0 := Subsingleton.elim _ _
  have e0 := (idx_rows t).2.2.2.2.2.2.1
  obtain ⟨r, hr, hi⟩ : ∃ r : Fin 1000000, r.val = t.val * 4000 + p.val
      ∧ (⟨((((cfg0.win 15).blk t).view.emb (ix2 p (0 : Fin 1))) 0).val, ((((cfg0.win 15).blk t).view.emb (ix2 p (0 : Fin 1))) 0).isLt⟩ : Fin 1000000) = r :=
    ⟨_, (show win0_15.index t (0 : Fin 2) * 4000 + 1 * p.val = t.val * 4000 + p.val by rw [e0]; omega), rfl⟩
  show k0_pay1 (k0_pay2 (iblk m c 2 t) (iblk m c 5 t) (iblk m c 6 t) (iblk m c 7 t) (iblk m c 8 t) (iblk m c 9 t) (iblk m c 10 t) (iblk m c 1 t))
      (k0_pay3 (iblk m c 0 t) (iblk m c 3 t)) (iblk m c 4 t) (iblk m c 11 t) (iblk m c 12 t) (iblk m c 13 t) (iblk m c 14 t) (ix2 p (0 : Fin 1))
    = score (V m c main_arg6) (V m c main_arg7) (V m c main_arg8) (V m c main_arg9) (V m c main_arg10) (V m c main_arg11)
        (V m c main_arg12) (V m c main_arg13) (V m c main_arg14) (V m c main_arg15) (V m c main_arg16) (V m c main_arg17)
        (fun k => (V m c main_v16 : S1000000x96.Idx → EReal) (ix2 ⟨((((cfg0.win 15).blk t).view.emb (ix2 p (0 : Fin 1))) 0).val, ((((cfg0.win 15).blk t).view.emb (ix2 p (0 : Fin 1))) 0).isLt⟩ k))
        (fun k => (V m c main_v23 : S1000000x27.Idx → EReal) (ix2 ⟨((((cfg0.win 15).blk t).view.emb (ix2 p (0 : Fin 1))) 0).val, ((((cfg0.win 15).blk t).view.emb (ix2 p (0 : Fin 1))) 0).isLt⟩ k))
        (fun k => (V m c main_v30 : S1000000x18.Idx → EReal) (ix2 ⟨((((cfg0.win 15).blk t).view.emb (ix2 p (0 : Fin 1))) 0).val, ((((cfg0.win 15).blk t).view.emb (ix2 p (0 : Fin 1))) 0).isLt⟩ k))
  rw [hi]
  refine (payload_apply (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) (iblk m c 14 t) p).trans ?_
  exact score_congr (block3 m c t) (block4 m c t) (block5 m c t) (block6 m c t) (block7 m c t) (block8 m c t) (block9 m c t)
    (block10 m c t) (block11 m c t) (block12 m c t) (block13 m c t) (block14 m c t)
    (funext (rows0 m c t p r hr)) (funext (rows1 m c t p r hr)) (funext (rows2 m c t p r hr))

/-- An index of the result array is in point `t`'s block iff each coordinate is in the block's range on its axis. -/
theorem mem_blk (t : Fin cfg0.N) (i : S1000000x1.Idx) :
    i ∈ ((cfg0.win 15).blk t).view.set ↔ ∀ a : Fin 2, win0_15.index t a * S4000x1.size a ≤ (i a).val ∧ (i a).val < win0_15.index t a * S4000x1.size a + S4000x1.size a := by
  show i ∈ ((View.whole main_v31).slice (win0_15.rect t)).set ↔ _
  rw [View.set_slice_whole, Rect.mem_set_unit]
  exact Iff.rfl

/-- Every row of the result lies in some point's block: row `r` in block `r / 4000`. -/
theorem covered (i : S1000000x1.Idx) :
    ∃ t : Fin cfg0.N, (cfg0.win 15).flush t = true ∧ i ∈ ((cfg0.win 15).blk t).view.set := by
  have hi0 : (i 0).val < 1000000 := (i 0).isLt
  have hi1 : (i 1).val < 1 := (i 1).isLt
  obtain ⟨t, ht⟩ : ∃ t : Fin cfg0.N, t.val = (i 0).val / 4000 :=
    ⟨⟨(i 0).val / 4000, by show (i 0).val / 4000 < grid0.N; rw [N_0]; omega⟩, rfl⟩
  have e0 := (idx_rows t).2.2.2.2.2.2.1
  have e1 := (idx_rows t).2.2.2.2.2.2.2
  refine ⟨t, flush0_15 t, ?_⟩
  rw [mem_blk]
  intro a
  match a with
  | ⟨0, _⟩ =>
    show win0_15.index t (0 : Fin 2) * 4000 ≤ (i 0).val ∧ (i 0).val < win0_15.index t (0 : Fin 2) * 4000 + 4000
    rw [e0, ht]; omega
  | ⟨1, _⟩ =>
    show win0_15.index t (1 : Fin 2) * 1 ≤ (i 1).val ∧ (i 1).val < win0_15.index t (1 : Fin 2) * 1 + 1
    rw [e1]; omega

/-- THE RESULT ARRAY after the run is the specification's result of the arrays the region finds. -/
theorem final (c : Dev nD) : (dats m 0 c).arrAt 15 cfg0.N = found m c :=
  (dats m 0 c).arrAt_eq_of_cover 15 (found m c) (fun t _ => flushed_eq m c t) covered

/-- The kernel's run, read: the result array at the specification's result, the arguments unchanged. -/
theorem run : θ_run defs (onTc (τ := τ) (main (F := Ideal))) ⟨m, fun _ => 0, ρ⟩ fun r => ∀ c : Dev nD,
      r.2.mem ((c : Thread nD τ).loc main_v31) = found m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17) :=
  (θ_run defs _ _).mono (fun r h c => ⟨(h c).1.trans (final m c), (h c).2⟩) (Value.run_blocks m ρ)

end Cert.KernelIdeal.Hand

end
-- ==== Proof.Prelude.lean ====
/-
  The three gathered arrays are the same arrays in both programs.

  Before its one region the kernel's program normalises the query indices (a negative index has the table's length added),
  gathers the members of each query's group, gathers their embedding rows and lays the three rows side by side, and gathers each
  query's item-identity row and genre row — from tables it first rounds to a narrow float format, which over the extended reals
  changes nothing. The reference's program performs the same index normalisations, gathers and reshape on the unrounded tables.
  So each array the region finds is, as a term of the argument arrays, the array the reference's program computes: the gathers
  are never opened, only recognised as the same operation of the same operands.
-/
import proofs.«102774_j77687368450112_2_alg».proof.Proof.Gen.KernelIdeal.Frame
import proofs.«102774_j77687368450112_2_alg».proof.Proof.Gen.ReferenceIdeal.Read
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- The member-embedding array `[1000000, 96]` the region finds is the reference's. -/
theorem gathered_members (c : Dev nD) :
    (V m c main_v16 : S1000000x96.Idx → EReal)
      = Cert.ReferenceIdeal.Read.val_main_v44 (F := Ideal) (m ((c : Thread nD τ).loc main_arg0)) (m ((c : Thread nD τ).loc main_arg2)) (m ((c : Thread nD τ).loc main_arg3)) := by
  dsimp only [Gen.V, Gen.hostOps0]
  after_results_simp
  rfl

/-- The item-identity array `[1000000, 27]` the region finds is the reference's. -/
theorem gathered_items (c : Dev nD) :
    (V m c main_v23 : S1000000x27.Idx → EReal)
      = Cert.ReferenceIdeal.Read.val_main_v28 (F := Ideal) (m ((c : Thread nD τ).loc main_arg1)) (m ((c : Thread nD τ).loc main_arg4)) := by
  dsimp only [Gen.V, Gen.hostOps0]
  after_results_simp
  rfl

/-- The genre array `[1000000, 18]` the region finds is the reference's. -/
theorem gathered_genres (c : Dev nD) :
    (V m c main_v30 : S1000000x18.Idx → EReal)
      = Cert.ReferenceIdeal.Read.val_main_v6 (F := Ideal) (m ((c : Thread nD τ).loc main_arg1)) (m ((c : Thread nD τ).loc main_arg5)) := by
  dsimp only [Gen.V, Gen.hostOps0]
  after_results_simp
  rfl

end Cert.KernelIdeal.Hand

end
-- ==== Proof.RefValue.lean ====
/-
  The reference's result, read at one entry.

  The reference applies the same six affine layers, two column concatenations, rectifier and logistic function to whole
  1000000-row arrays, the logistic function spelt out as `1 / (1 + e^(-y))` with the float word of 1. Each stage read at row `p`
  depends on row `p` of its operands only, so entry `(p, 0)` of the result is the specification's `score` of row `p` of the three
  gathered arrays — which are left as the program computes them: the kernel's program gathers the same rows.
-/
import proofs.«102774_j77687368450112_2_alg».proof.Proof.Gen.ReferenceIdeal.Read
import proofs.«102774_j77687368450112_2_alg».proof.Proof.Layers

noncomputable section

open scoped BigOperators

namespace Cert.ReferenceIdeal.Hand

open Cert.ReferenceIdeal Cert.ReferenceIdeal.Gen Cert.ReferenceIdeal.Read Idealize.ShloMosaic Idealize.ShloMosaic.ValueIdx Cert.Spec Cert.Layers

/-- The float word `0x3F800000` denotes the real number one. -/
theorem one_f32 : Ideal.ofBits .f32 0x3F800000#32 = 1 := by
  simp [Ideal.ofBits, Ideal.ieee, -EReal.coe_mul]; norm_num

/-- The reference's `gen1` layer at `(p, q)`: the affine layer of row `p` of its operand. -/
theorem ref_gen1 (x1 : (⟨S1000000, .i32⟩ : BufTy).Contents (Elt Ideal)) (x5 : (⟨S100000x18, .f32⟩ : BufTy).Contents (Elt Ideal)) (x8 : (⟨S30x18, .f32⟩ : BufTy).Contents (Elt Ideal)) (x9 : (⟨S30, .f32⟩ : BufTy).Contents (Elt Ideal)) (p : Fin 1000000) (q : Fin 30) :
    val_main_v11 (F := Ideal) x1 x5 x8 x9 (ix2 p q) = dense x8 x9 (fun k => val_main_v6 (F := Ideal) x1 x5 (ix2 p k)) q := by
  unfold val_main_v11 val_main_v8 val_main_v10 val_main_v9 val_main_v7
  exact host_dense _ rfl _ x8 x9 _ _ _ p q

/-- The reference's `gen2` layer at `(p, q)`: the affine layer of row `p` of its operand. -/
theorem ref_gen2 (x1 : (⟨S1000000, .i32⟩ : BufTy).Contents (Elt Ideal)) (x5 : (⟨S100000x18, .f32⟩ : BufTy).Contents (Elt Ideal)) (x8 : (⟨S30x18, .f32⟩ : BufTy).Contents (Elt Ideal)) (x9 : (⟨S30, .f32⟩ : BufTy).Contents (Elt Ideal)) (x10 : (⟨S30x30, .f32⟩ : BufTy).Contents (Elt Ideal)) (x11 : (⟨S30, .f32⟩ : BufTy).Contents (Elt Ideal)) (p : Fin 1000000) (q : Fin 30) :
    val_main_v16 (F := Ideal) x1 x5 x8 x9 x10 x11 (ix2 p q) = dense x10 x11 (fun k => val_main_v11 (F := Ideal) x1 x5 x8 x9 (ix2 p k)) q := by
  unfold val_main_v16 val_main_v13 val_main_v15 val_main_v14 val_main_v12
  exact host_dense _ rfl _ x10 x11 _ _ _ p q

/-- The reference's `gen3` layer at `(p, q)`: the affine layer of row `p` of its operand. -/
theorem ref_gen3 (x1 : (⟨S1000000, .i32⟩ : BufTy).Contents (Elt Ideal)) (x5 : (⟨S100000x18, .f32⟩ : BufTy).Contents (Elt Ideal)) (x8 : (⟨S30x18, .f32⟩ : BufTy).Contents (Elt Ideal)) (x9 : (⟨S30, .f32⟩ : BufTy).Contents (Elt Ideal)) (x10 : (⟨S30x30, .f32⟩ : BufTy).Contents (Elt Ideal)) (x11 : (⟨S30, .f32⟩ : BufTy).Contents (Elt Ideal)) (x12 : (⟨S5x30, .f32⟩ : BufTy).Contents (Elt Ideal)) (x13 : (⟨S5, .f32⟩ : BufTy).Contents (Elt Ideal)) (p : Fin 1000000) (q : Fin 5) :
    val_main_v21 (F := Ideal) x1 x5 x8 x9 x10 x11 x12 x13 (ix2 p q) = dense x12 x13 (fun k => val_main_v16 (F := Ideal) x1 x5 x8 x9 x10 x11 (ix2 p k)) q := by
  unfold val_main_v21 val_main_v18 val_main_v20 val_main_v19 val_main_v17
  exact host_dense _ rfl _ x12 x13 _ _ _ p q

/-- The reference's `grp` layer at `(p, q)`: the affine layer of row `p` of its operand. -/
theorem ref_grp (x0 : (⟨S1000000, .i32⟩ : BufTy).Contents (Elt Ideal)) (x2 : (⟨S100000x3, .i32⟩ : BufTy).Contents (Elt Ideal)) (x3 : (⟨S100000x32, .f32⟩ : BufTy).Contents (Elt Ideal)) (x6 : (⟨S32x96, .f32⟩ : BufTy).Contents (Elt Ideal)) (x7 : (⟨S32, .f32⟩ : BufTy).Contents (Elt Ideal)) (p : Fin 1000000) (q : Fin 32) :
    val_main_v49 (F := Ideal) x0 x2 x3 x6 x7 (ix2 p q) = dense x6 x7 (fun k => val_main_v44 (F := Ideal) x0 x2 x3 (ix2 p k)) q := by
  unfold val_main_v49 val_main_v46 val_main_v48 val_main_v47 val_main_v45
  exact host_dense _ rfl _ x6 x7 _ _ _ p q

/-- The reference's `hid` layer at `(p, q)`: the affine layer of row `p` of its operand. -/
theorem ref_hid (x0 : (⟨S1000000, .i32⟩ : BufTy).Contents (Elt Ideal)) (x1 : (⟨S1000000, .i32⟩ : BufTy).Contents (Elt Ideal)) (x2 : (⟨S100000x3, .i32⟩ : BufTy).Contents (Elt Ideal)) (x3 : (⟨S100000x32, .f32⟩ : BufTy).Contents (Elt Ideal)) (x4 : (⟨S100000x27, .f32⟩ : BufTy).Contents (Elt Ideal)) (x5 : (⟨S100000x18, .f32⟩ : BufTy).Contents (Elt Ideal)) (x6 : (⟨S32x96, .f32⟩ : BufTy).Contents (Elt Ideal)) (x7 : (⟨S32, .f32⟩ : BufTy).Contents (Elt Ideal)) (x8 : (⟨S30x18, .f32⟩ : BufTy).Contents (Elt Ideal)) (x9 : (⟨S30, .f32⟩ : BufTy).Contents (Elt Ideal)) (x10 : (⟨S30x30, .f32⟩ : BufTy).Contents (Elt Ideal)) (x11 : (⟨S30, .f32⟩ : BufTy).Contents (Elt Ideal)) (x12 : (⟨S5x30, .f32⟩ : BufTy).Contents (Elt Ideal)) (x13 : (⟨S5, .f32⟩ : BufTy).Contents (Elt Ideal)) (x14 : (⟨S8x96, .f32⟩ : BufTy).Contents (Elt Ideal)) (x15 : (⟨S8, .f32⟩ : BufTy).Contents (Elt Ideal)) (p : Fin 1000000) (q : Fin 8) :
    val_main_v56 (F := Ideal) x0 x1 x2 x3 x4 x5 x6 x7 x8 x9 x10 x11 x12 x13 x14 x15 (ix2 p q) = dense x14 x15 (fun k => val_main_v51 (F := Ideal) x0 x1 x2 x3 x4 x5 x6 x7 x8 x9 x10 x11 x12 x13 (ix2 p k)) q := by
  unfold val_main_v56 val_main_v53 val_main_v55 val_main_v54 val_main_v52
  exact host_dense _ rfl _ x14 x15 _ _ _ p q

/-- The reference's `out` layer at `(p, q)`: the affine layer of row `p` of its operand. -/
theorem ref_out (x0 : (⟨S1000000, .i32⟩ : BufTy).Contents (Elt Ideal)) (x1 : (⟨S1000000, .i32⟩ : BufTy).Contents (Elt Ideal)) (x2 : (⟨S100000x3, .i32⟩ : BufTy).Contents (Elt Ideal)) (x3 : (⟨S100000x32, .f32⟩ : BufTy).Contents (Elt Ideal)) (x4 : (⟨S100000x27, .f32⟩ : BufTy).Contents (Elt Ideal)) (x5 : (⟨S100000x18, .f32⟩ : BufTy).Contents (Elt Ideal)) (x6 : (⟨S32x96, .f32⟩ : BufTy).Contents (Elt Ideal)) (x7 : (⟨S32, .f32⟩ : BufTy).Contents (Elt Ideal)) (x8 : (⟨S30x18, .f32⟩ : BufTy).Contents (Elt Ideal)) (x9 : (⟨S30, .f32⟩ : BufTy).Contents (Elt Ideal)) (x10 : (⟨S30x30, .f32⟩ : BufTy).Contents (Elt Ideal)) (x11 : (⟨S30, .f32⟩ : BufTy).Contents (Elt Ideal)) (x12 : (⟨S5x30, .f32⟩ : BufTy).Contents (Elt Ideal)) (x13 : (⟨S5, .f32⟩ : BufTy).Contents (Elt Ideal)) (x14 : (⟨S8x96, .f32⟩ : BufTy).Contents (Elt Ideal)) (x15 : (⟨S8, .f32⟩ : BufTy).Contents (Elt Ideal)) (x16 : (⟨S1x8, .f32⟩ : BufTy).Contents (Elt Ideal)) (x17 : (⟨S1, .f32⟩ : BufTy).Contents (Elt Ideal)) (p : Fin 1000000) (q : Fin 1) :
    val_main_v62 (F := Ideal) x0 x1 x2 x3 x4 x5 x6 x7 x8 x9 x10 x11 x12 x13 x14 x15 x16 x17 (ix2 p q) = dense x16 x17 (fun k => val_main_v57 (F := Ideal) x0 x1 x2 x3 x4 x5 x6 x7 x8 x9 x10 x11 x12 x13 x14 x15 (ix2 p k)) q := by
  unfold val_main_v62 val_main_v59 val_main_v61 val_main_v60 val_main_v58
  exact host_dense _ rfl _ x16 x17 _ _ _ p q

/-- The item's embedding array at `(p, j)`. -/
theorem ref_item (x1 : (⟨S1000000, .i32⟩ : BufTy).Contents (Elt Ideal)) (x4 : (⟨S100000x27, .f32⟩ : BufTy).Contents (Elt Ideal)) (x5 : (⟨S100000x18, .f32⟩ : BufTy).Contents (Elt Ideal)) (x8 : (⟨S30x18, .f32⟩ : BufTy).Contents (Elt Ideal)) (x9 : (⟨S30, .f32⟩ : BufTy).Contents (Elt Ideal)) (x10 : (⟨S30x30, .f32⟩ : BufTy).Contents (Elt Ideal)) (x11 : (⟨S30, .f32⟩ : BufTy).Contents (Elt Ideal)) (x12 : (⟨S5x30, .f32⟩ : BufTy).Contents (Elt Ideal)) (x13 : (⟨S5, .f32⟩ : BufTy).Contents (Elt Ideal)) (p : Fin 1000000) (j : Fin 32) :
    val_main_v29 (F := Ideal) x1 x4 x5 x8 x9 x10 x11 x12 x13 (ix2 p j)
      = joinItem (fun k => val_main_v28 (F := Ideal) x1 x4 (ix2 p k)) (fun k => val_main_v21 (F := Ideal) x1 x5 x8 x9 x10 x11 x12 x13 (ix2 p k)) j := by
  unfold val_main_v29
  exact concat_item _ _ _ p j

/-- The interaction array at `(p, j)`. -/
theorem ref_inter (x0 : (⟨S1000000, .i32⟩ : BufTy).Contents (Elt Ideal)) (x1 : (⟨S1000000, .i32⟩ : BufTy).Contents (Elt Ideal)) (x2 : (⟨S100000x3, .i32⟩ : BufTy).Contents (Elt Ideal)) (x3 : (⟨S100000x32, .f32⟩ : BufTy).Contents (Elt Ideal)) (x4 : (⟨S100000x27, .f32⟩ : BufTy).Contents (Elt Ideal)) (x5 : (⟨S100000x18, .f32⟩ : BufTy).Contents (Elt Ideal)) (x6 : (⟨S32x96, .f32⟩ : BufTy).Contents (Elt Ideal)) (x7 : (⟨S32, .f32⟩ : BufTy).Contents (Elt Ideal)) (x8 : (⟨S30x18, .f32⟩ : BufTy).Contents (Elt Ideal)) (x9 : (⟨S30, .f32⟩ : BufTy).Contents (Elt Ideal)) (x10 : (⟨S30x30, .f32⟩ : BufTy).Contents (Elt Ideal)) (x11 : (⟨S30, .f32⟩ : BufTy).Contents (Elt Ideal)) (x12 : (⟨S5x30, .f32⟩ : BufTy).Contents (Elt Ideal)) (x13 : (⟨S5, .f32⟩ : BufTy).Contents (Elt Ideal)) (p : Fin 1000000) (j : Fin 96) :
    val_main_v51 (F := Ideal) x0 x1 x2 x3 x4 x5 x6 x7 x8 x9 x10 x11 x12 x13 (ix2 p j)
      = interact (fun k => val_main_v49 (F := Ideal) x0 x2 x3 x6 x7 (ix2 p k)) (fun k => val_main_v29 (F := Ideal) x1 x4 x5 x8 x9 x10 x11 x12 x13 (ix2 p k)) j := by
  unfold val_main_v51 val_main_v50
  exact concat_interact _ _ _ p j

/-- The rectifier at an entry: the maximum with the zero word. -/
theorem ref_relu (x0 : (⟨S1000000, .i32⟩ : BufTy).Contents (Elt Ideal)) (x1 : (⟨S1000000, .i32⟩ : BufTy).Contents (Elt Ideal)) (x2 : (⟨S100000x3, .i32⟩ : BufTy).Contents (Elt Ideal)) (x3 : (⟨S100000x32, .f32⟩ : BufTy).Contents (Elt Ideal)) (x4 : (⟨S100000x27, .f32⟩ : BufTy).Contents (Elt Ideal)) (x5 : (⟨S100000x18, .f32⟩ : BufTy).Contents (Elt Ideal)) (x6 : (⟨S32x96, .f32⟩ : BufTy).Contents (Elt Ideal)) (x7 : (⟨S32, .f32⟩ : BufTy).Contents (Elt Ideal)) (x8 : (⟨S30x18, .f32⟩ : BufTy).Contents (Elt Ideal)) (x9 : (⟨S30, .f32⟩ : BufTy).Contents (Elt Ideal)) (x10 : (⟨S30x30, .f32⟩ : BufTy).Contents (Elt Ideal)) (x11 : (⟨S30, .f32⟩ : BufTy).Contents (Elt Ideal)) (x12 : (⟨S5x30, .f32⟩ : BufTy).Contents (Elt Ideal)) (x13 : (⟨S5, .f32⟩ : BufTy).Contents (Elt Ideal)) (x14 : (⟨S8x96, .f32⟩ : BufTy).Contents (Elt Ideal)) (x15 : (⟨S8, .f32⟩ : BufTy).Contents (Elt Ideal)) (i : S1000000x8.Idx) :
    val_main_v57 (F := Ideal) x0 x1 x2 x3 x4 x5 x6 x7 x8 x9 x10 x11 x12 x13 x14 x15 i = max (val_main_v56 (F := Ideal) x0 x1 x2 x3 x4 x5 x6 x7 x8 x9 x10 x11 x12 x13 x14 x15 i) (Ideal.ofBits .f32 0x00000000#32) := rfl

/-- The last five operations — negate, exponential, one plus, one over — are the logistic function. -/
theorem ref_tail (x0 : (⟨S1000000, .i32⟩ : BufTy).Contents (Elt Ideal)) (x1 : (⟨S1000000, .i32⟩ : BufTy).Contents (Elt Ideal)) (x2 : (⟨S100000x3, .i32⟩ : BufTy).Contents (Elt Ideal)) (x3 : (⟨S100000x32, .f32⟩ : BufTy).Contents (Elt Ideal)) (x4 : (⟨S100000x27, .f32⟩ : BufTy).Contents (Elt Ideal)) (x5 : (⟨S100000x18, .f32⟩ : BufTy).Contents (Elt Ideal)) (x6 : (⟨S32x96, .f32⟩ : BufTy).Contents (Elt Ideal)) (x7 : (⟨S32, .f32⟩ : BufTy).Contents (Elt Ideal)) (x8 : (⟨S30x18, .f32⟩ : BufTy).Contents (Elt Ideal)) (x9 : (⟨S30, .f32⟩ : BufTy).Contents (Elt Ideal)) (x10 : (⟨S30x30, .f32⟩ : BufTy).Contents (Elt Ideal)) (x11 : (⟨S30, .f32⟩ : BufTy).Contents (Elt Ideal)) (x12 : (⟨S5x30, .f32⟩ : BufTy).Contents (Elt Ideal)) (x13 : (⟨S5, .f32⟩ : BufTy).Contents (Elt Ideal)) (x14 : (⟨S8x96, .f32⟩ : BufTy).Contents (Elt Ideal)) (x15 : (⟨S8, .f32⟩ : BufTy).Contents (Elt Ideal)) (x16 : (⟨S1x8, .f32⟩ : BufTy).Contents (Elt Ideal)) (x17 : (⟨S1, .f32⟩ : BufTy).Contents (Elt Ideal)) (i : S1000000x1.Idx) :
    val_main_v68 (F := Ideal) x0 x1 x2 x3 x4 x5 x6 x7 x8 x9 x10 x11 x12 x13 x14 x15 x16 x17 i = Ideal.logistic (val_main_v62 (F := Ideal) x0 x1 x2 x3 x4 x5 x6 x7 x8 x9 x10 x11 x12 x13 x14 x15 x16 x17 i) := by
  show Ideal.div (Ideal.ofBits .f32 0x3F800000#32) (Ideal.ofBits .f32 0x3F800000#32 + Ideal.exp (-(val_main_v62 (F := Ideal) x0 x1 x2 x3 x4 x5 x6 x7 x8 x9 x10 x11 x12 x13 x14 x15 x16 x17 i))) = _
  rw [one_f32]
  rfl

/-- THE REFERENCE'S RESULT is the specification's result of the three gathered arrays and the weights. -/
theorem ref_result (x0 : (⟨S1000000, .i32⟩ : BufTy).Contents (Elt Ideal)) (x1 : (⟨S1000000, .i32⟩ : BufTy).Contents (Elt Ideal)) (x2 : (⟨S100000x3, .i32⟩ : BufTy).Contents (Elt Ideal)) (x3 : (⟨S100000x32, .f32⟩ : BufTy).Contents (Elt Ideal)) (x4 : (⟨S100000x27, .f32⟩ : BufTy).Contents (Elt Ideal)) (x5 : (⟨S100000x18, .f32⟩ : BufTy).Contents (Elt Ideal)) (x6 : (⟨S32x96, .f32⟩ : BufTy).Contents (Elt Ideal)) (x7 : (⟨S32, .f32⟩ : BufTy).Contents (Elt Ideal)) (x8 : (⟨S30x18, .f32⟩ : BufTy).Contents (Elt Ideal)) (x9 : (⟨S30, .f32⟩ : BufTy).Contents (Elt Ideal)) (x10 : (⟨S30x30, .f32⟩ : BufTy).Contents (Elt Ideal)) (x11 : (⟨S30, .f32⟩ : BufTy).Contents (Elt Ideal)) (x12 : (⟨S5x30, .f32⟩ : BufTy).Contents (Elt Ideal)) (x13 : (⟨S5, .f32⟩ : BufTy).Contents (Elt Ideal)) (x14 : (⟨S8x96, .f32⟩ : BufTy).Contents (Elt Ideal)) (x15 : (⟨S8, .f32⟩ : BufTy).Contents (Elt Ideal)) (x16 : (⟨S1x8, .f32⟩ : BufTy).Contents (Elt Ideal)) (x17 : (⟨S1, .f32⟩ : BufTy).Contents (Elt Ideal)) :
    val_main_v68 (F := Ideal) x0 x1 x2 x3 x4 x5 x6 x7 x8 x9 x10 x11 x12 x13 x14 x15 x16 x17
      = result (val_main_v44 (F := Ideal) x0 x2 x3) (val_main_v28 (F := Ideal) x1 x4) (val_main_v6 (F := Ideal) x1 x5)
          x6 x7 x8 x9 x10 x11 x12 x13 x14 x15 x16 x17 := by
  funext i
  obtain ⟨p, q, rfl⟩ : ∃ (p : Fin 1000000) (q : Fin 1), i = ix2 p q := ⟨i 0, i 1, eq_ix2 i⟩
  obtain rfl : q = 0 := Subsingleton.elim _ _
  rw [ref_tail]
  simp only [ref_out, ref_relu, ref_hid, ref_inter, ref_grp, ref_item, ref_gen3, ref_gen2, ref_gen1]
  rfl

end Cert.ReferenceIdeal.Hand

end
-- ==== Proof.lean ====
/-
  A recommendation score for a million (group, item) queries, computed two ways.

  Each query gathers three rows — the concatenated embeddings of its group's three members, its item's identity embedding and
  its item's genre vector — and passes them through a small network: three affine layers on the genres, an affine layer on the
  members, the coordinatewise product of the two 32-vectors joined with both of them, a rectified affine layer and a final affine
  layer under the logistic function. One program does the gathers on the host and the network inside a kernel that walks the
  queries in 250 blocks of 4000 rows, rounding the matrix products' operands to a narrow float format; the other does everything
  on whole arrays. Over the extended reals rounding is the identity and every stage of the network acts on each query's rows
  alone, so both programs end with the same array: entry `(r, 0)` is `Cert.Spec.score` of row `r` of the gathered arrays. No law of
  arithmetic is needed beyond reading each operation at an entry — the sums run over the same indices in the same order — and the
  float word of one denoting the number one; the finiteness of the inputs is never used.
-/
import proofs.«102774_j77687368450112_2_alg».proof.Defs
import proofs.«102774_j77687368450112_2_alg».proof.Proof.Gen.Kernel
import proofs.«102774_j77687368450112_2_alg».proof.Proof.Gen.Kernel.Frame
import proofs.«102774_j77687368450112_2_alg».proof.Proof.Gen.KernelIdeal
import proofs.«102774_j77687368450112_2_alg».proof.Proof.Gen.KernelIdeal.Frame
import proofs.«102774_j77687368450112_2_alg».proof.Proof.Gen.KernelIdeal.Value
import proofs.«102774_j77687368450112_2_alg».proof.Proof.Gen.ReferenceIdeal
import proofs.«102774_j77687368450112_2_alg».proof.Proof.Gen.ReferenceIdeal.Run
import proofs.«102774_j77687368450112_2_alg».proof.Proof.Gen.ReferenceIdeal.Read
import proofs.«102774_j77687368450112_2_alg».proof.Proof.Gen.Pre_finite_inputs
import proofs.«102774_j77687368450112_2_alg».proof.Proof.KernelBlocks
import proofs.«102774_j77687368450112_2_alg».proof.Proof.Prelude
import proofs.«102774_j77687368450112_2_alg».proof.Proof.RefValue
import Idealize.ShloMosaic.Adequacy
import Idealize.ShloMosaic.Init

noncomputable section

namespace Cert.Proof

open Idealize.ShloMosaic Idealize.SL.Sem

/-- The kernel's program, word by word, runs and leaves its arguments as they were. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the specification's result of the same gathered arrays and
    weights: the kernel's by its blocks, the reference's stage by stage, the gathered arrays recognised as the same terms. -/
theorem algebraic : Cert.algebraic_KernelIdeal_ReferenceIdeal := by
  intro m ρ m' ρ' _ hagree
  refine ⟨fun c => Cert.KernelIdeal.Hand.found m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15, a16, a17⟩ := hagree c
  rw [Cert.ReferenceIdeal.Read.val_main_v68_eq, Cert.ReferenceIdeal.Hand.ref_result, a0, a1, a2, a3, a4, a5, a6, a7, a8, a9, a10, a11, a12, a13, a14, a15, a16, a17]
  show _ = Cert.Spec.result _ _ _ _ _ _ _ _ _ _ _ _ _ _ _
  rw [Cert.KernelIdeal.Hand.gathered_members m c, Cert.KernelIdeal.Hand.gathered_items m c, Cert.KernelIdeal.Hand.gathered_genres m c,
    Cert.KernelIdeal.Gen.V_main_arg6 m c, Cert.KernelIdeal.Gen.V_main_arg7 m c, Cert.KernelIdeal.Gen.V_main_arg8 m c, Cert.KernelIdeal.Gen.V_main_arg9 m c, Cert.KernelIdeal.Gen.V_main_arg10 m c, Cert.KernelIdeal.Gen.V_main_arg11 m c, Cert.KernelIdeal.Gen.V_main_arg12 m c, Cert.KernelIdeal.Gen.V_main_arg13 m c, Cert.KernelIdeal.Gen.V_main_arg14 m c, Cert.KernelIdeal.Gen.V_main_arg15 m c, Cert.KernelIdeal.Gen.V_main_arg16 m c, Cert.KernelIdeal.Gen.V_main_arg17 m c]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
